-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_

variable [Facts]

def fn {F : FTy → Type} [FloatOps F] (main_arg0 : FVec F S2x2048x1024 .f32) (main_arg1 : FVec F S3072x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  main_v8
-- ==== Kernel.lean ====
abbrev S2x2048x1024 : Shape := ⟨3, ![2, 2048, 1024]⟩
abbrev S3072x1024 : Shape := ⟨2, ![3072, 1024]⟩
abbrev S16x3x64x1024 : Shape := ⟨4, ![16, 3, 64, 1024]⟩
abbrev S3x16x64x1024 : Shape := ⟨4, ![3, 16, 64, 1024]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S2x2048x3072 : Shape := ⟨3, ![2, 2048, 3072]⟩
abbrev S1x2048x128 : Shape := ⟨3, ![1, 2048, 128]⟩
abbrev S2048x128 : Shape := ⟨2, ![2048, 128]⟩
abbrev S2048x64 : Shape := ⟨2, ![2048, 64]⟩
abbrev S64x64 : Shape := ⟨2, ![64, 64]⟩

abbrev nBuf : Space → Nat
  | .hbm => 9
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S16x3x64x1024, .f32⟩
  | .hbm, ⟨3, _⟩ => ⟨S3x16x64x1024, .f32⟩
  | .hbm, ⟨4, _⟩ => ⟨S3072x1024, .f32⟩
  | .hbm, ⟨5, _⟩ => ⟨S4096x1024, .f32⟩
  | .hbm, ⟨6, _⟩ => ⟨S4096x3072, .bf16⟩
  | .hbm, ⟨7, _⟩ => ⟨S2x2048x3072, .bf16⟩
  | .hbm, ⟨8, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .f32⟩
  | .local _ .vmem, ⟨3, _⟩ => ⟨S512x3072, .bf16⟩
  | .local _ .vmem, ⟨4, _⟩ => ⟨S512x3072, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .f32⟩
  | .local _ .vmem, ⟨12, _⟩ => ⟨S1x2048x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S3072x1024_S16x3x64x1024 : S3072x1024.ShapeCasts S16x3x64x1024
  transposes_S16x3x64x1024_S3x16x64x1024_1_0_2_3 : S16x3x64x1024.Transposes [1, 0, 2, 3] S3x16x64x1024
  shapeCasts_S3x16x64x1024_S3072x1024 : S3x16x64x1024.ShapeCasts S3072x1024
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x3072 : S4096x3072.ShapeCasts S2x2048x3072
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S2048x128_o0_0_S2048x64 : S2048x128.Slices ![0, 0] S2048x64
  slices_S2048x128_o0_64_S2048x64 : S2048x128.Slices ![0, 64] S2048x64
  concatenates_S2048x64_S2048x64_S2048x128_d1 : Shape.Concatenates [S2048x64, S2048x64] S2048x128 1
  shapeCasts_S2048x128_S1x2048x128 : S2048x128.ShapeCasts S1x2048x128
  dot_S512x1024_S3072x1024_S512x3072_1_1_0_0_n_n_wf : DotDims.WF S512x1024 S3072x1024 S512x3072 [1] [1] [0] [0] [] []
  dot_S2048x64_S2048x64_S64x64_0_0_1_1_n_n_wf : DotDims.WF S2048x64 S2048x64 S64x64 [0] [0] [1] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .f32 = 32 ∨ (Rect.block (s := S3072x1024) S3072x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S4096x3072.size a
  hwx0_2 : ∀ i : grid0.Coords, EltTy.bits .bf16 = 32 ∨ (Rect.block (s := S4096x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x128.size a ≤ S2x2048x3072.size a
  hwx1_0 : ∀ i : grid1.Coords, EltTy.bits .bf16 = 32 ∨ (Rect.block (s := S2x2048x3072) S1x2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x3072.size a
  hwx1_1 : ∀ i : grid1.Coords, EltTy.bits .bf16 = 32 ∨ (Rect.block (s := S2x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x3072.size a
  hwx1_2 : ∀ i : grid1.Coords, EltTy.bits .bf16 = 32 ∨ (Rect.block (s := S2x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x128.size a ≤ S2x2048x1024.size a
  hwx1_3 : ∀ i : grid1.Coords, EltTy.bits .f32 = 32 ∨ (Rect.block (s := S2x2048x1024) S1x2048x128.size (cc1_transform_3 i) (hinb1_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1x2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S2x2048x3072 : Shape := ⟨3, ![2, 2048, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x2048x16x64 : Shape := ⟨4, ![2, 2048, 16, 64]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S2x2048x3072, .f32⟩
  | .hbm, ⟨3, _⟩ => ⟨S2x2048x16x192, .f32⟩
  | .hbm, ⟨4, _⟩ => ⟨S2x16x2048x192, .f32⟩
  | .hbm, ⟨5, _⟩ => ⟨S2x16x2048x64, .f32⟩
  | .hbm, ⟨6, _⟩ => ⟨S2x16x2048x64, .f32⟩
  | .hbm, ⟨7, _⟩ => ⟨S2x16x2048x64, .f32⟩
  | .hbm, ⟨8, _⟩ => ⟨S2x16x2048x2048, .f32⟩
  | .hbm, ⟨9, _⟩ => ⟨S_, .f32⟩
  | .hbm, ⟨10, _⟩ => ⟨S2x16x2048x2048, .f32⟩
  | .hbm, ⟨11, _⟩ => ⟨S2x16x2048x2048, .f32⟩
  | .hbm, ⟨12, _⟩ => ⟨S2x16x2048x64, .f32⟩
  | .hbm, ⟨13, _⟩ => ⟨S2x2048x16x64, .f32⟩
  | .hbm, ⟨14, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Region0.lean ====
/-
  The projection call (the first of the program's two kernel calls), at any float instance, entered with the
  TensorCore's buffers at contents `V`.

  At grid point t the body reads the t-th block of 512 rows of the flattened input (all 1024 columns) and the whole
  permuted weight matrix (3072 × 1024; staged once, its block index never moves), and stores one value, a
  512 × 3072 block: the product of the row block with the transposed weights.  So after the body the output's staging
  buffer holds that one stored value whatever it held before, and the two inputs' buffers hold their blocks untouched.
  Stated here: the blocks, the body's triple, the proof data of the pipeline and its body obligation at every point.
-/
import proofs.«176862_j63848983822744_2_alg».proof.Proof.Gen.KernelIdeal.Launch
import proofs.«176862_j63848983822744_2_alg».proof.Proof.Gen.KernelIdeal.Skeleton
import proofs.«176862_j63848983822744_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the block at every point, for any proof data over `V` whose body leaves it in place. -/
theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

/-- The weights' staging buffer holds the whole matrix at every point, fetched there (the first point) or not. -/
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-- The rectangles the body touches: each buffer whole. -/
abbrev rX : Rect S512x1024 := Rect.unit (s := S512x1024) ![0, 0] S512x1024.size inb_S512x1024_S512x1024_0_0
abbrev rW : Rect S3072x1024 := Rect.unit (s := S3072x1024) ![0, 0] S3072x1024.size inb_S3072x1024_S3072x1024_0_0
abbrev rO : Rect S512x3072 := Rect.unit (s := S512x3072) ![0, 0] S512x3072.size inb_S512x3072_S512x3072_0_0

/-- What the body leaves in the output's staging buffer: its one whole-buffer store. -/
def projOut (x0 : Vec F S512x1024 .f32) (x1 : Vec F S3072x1024 .f32) : Vec F S512x3072 .bf16 :=
  View.canon [⟨rO, k0_pay1 (View.ld x0 rX) (View.ld x1 rW)⟩]

/-- The one store covers the buffer. -/
theorem projCover (p0 : Vec F S512x3072 .bf16) (y : S512x3072.Idx) :
    ∃ pc ∈ ([⟨rO, p0⟩] : List (View.Piece (Elt F) S512x3072 .bf16)), y ∈ pc.1.set :=
  View.cover_of_tiled [⟨rO, p0⟩] S512x3072.size (by rfl) y

set_option maxHeartbeats 1000000 in
/-- The body on whole staging memrefs, the inputs' at contents `x0`, `x1` and the output's at anything, runs to the
    continuation holding the inputs' as they were and the output's at `projOut x0 x1`. -/
theorem projKernel (c : Dev nD) (E : Set ℕ) (i : grid0.Coords) (arg1 : Memref sig .tc .vmem S512x1024 .f32) (harg1 : arg1.IsWhole)
    (arg2 : Memref sig .tc .vmem S3072x1024 .f32) (harg2 : arg2.IsWhole) (arg3 : Memref sig .tc .vmem S512x3072 .bf16) (harg3 : arg3.IsWhole)
    (x0 : Vec F S512x1024 .f32) (x1 : Vec F S3072x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-- The proof data of the projection's pipeline on core `c`: the arrays as the call finds them; after the body at
    point `t` each input's buffer at its block and the output's at `projOut` of the two blocks; the invariant the
    scoped rest and the generator register, untouched; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

theorem projA_eq (c : Dev nD) (w : Fin cfg0.W) : (projDat V c).A w = V c (Pipeline.arrRef spec0 w) := by
  dsimp only [projDat]
theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projOut (projBlk V c 0 t) (projBlk V c 1 t) := by dsimp only [projDat]

theorem projBefore0 (c : Dev nD) (t : Fin cfg0.N) (d) : (projDat V c).before 0 t d = projBlk V c 0 t :=
  projBefore0_of V (projDat V c) (projA_eq V c 0) (projAfter0 V c) t d
theorem projBefore1 (c : Dev nD) (t : Fin cfg0.N) (d) : (projDat V c).before 1 t d = projBlk V c 1 t :=
  projBefore1_of V (projDat V c) (projA_eq V c 1) (projAfter1 V c) t d

/-- What the body is called with at point `t`, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

/-- The body at any point: the inputs' memrefs hold their blocks, so `projKernel` applies; the invariant and the
    core's dues pass through unread. -/
theorem projBody (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1]
  rw [show (projDat V c).Φ t.succ = (projDat V c).Φ t.castSucc from rfl,
    show (projDat V c).owesAt () t.succ = (projDat V c).owesAt () t.castSucc from rfl,
    projAfter0, projAfter1, projAfter2]
  iintro ⟨HΦ, Ho, ⟨%d0, H0⟩, ⟨%d1, H1⟩, ⟨%d2, H2⟩⟩
  iapply (projKernel c Set.univ _ _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem projObligation (c : Dev nD) : BodyObligation (projDat (F := F) V c) (defs₀ (F := F)) Variants.none () Set.univ := fun t => by
  rw [bigSep_W0, bigSep_W0]
  exact projBody V c t

end

end Cert.KernelIdeal.Fr

end
-- ==== Proof.Region1.lean ====
/-
  The attention call (the second of the program's two kernel calls), at any float instance, entered with the
  TensorCore's buffers at contents `V`.

  At grid point (b, j) the body reads three [1, 2048, 128] blocks of ONE array, the projected [2, 2048, 3072] tensor —
  batch b's columns 128·j … (queries of heads 2j, 2j+1), 128·(8+j) … (their keys) and 128·(16+j) … (their values) —
  and stores one [1, 2048, 128] block of the output.  Since the three input windows lie on one array, each holds a
  part of that array's ownership: a half, a quarter and a quarter.
  Stated here: the blocks, the body's triple, the proof data of the pipeline and its body obligation at every point.
-/
import proofs.«176862_j63848983822744_2_alg».proof.Proof.Gen.KernelIdeal.Launch
import proofs.«176862_j63848983822744_2_alg».proof.Proof.Gen.KernelIdeal.Skeleton
import proofs.«176862_j63848983822744_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, for any proof data over `V` whose body leaves it in place. -/
theorem attnBefore0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-- The rectangle the body touches in every buffer: the whole [1, 2048, 128] block. -/
abbrev rB : Rect S1x2048x128 := Rect.unit (s := S1x2048x128) ![0, 0, 0] S1x2048x128.size inb_S1x2048x128_S1x2048x128_0_0_0

/-- What the body leaves in the output's staging buffer: its one whole-buffer store. -/
def attnOut (x0 x1 x2 : Vec F S1x2048x128 .bf16) : Vec F S1x2048x128 .f32 :=
  View.canon [⟨rB, k1_pay1 (View.ld x0 rB) (View.ld x1 rB) (View.ld x2 rB)⟩]

/-- The one store covers the buffer. -/
theorem attnCover (p0 : Vec F S1x2048x128 .f32) (y : S1x2048x128.Idx) :
    ∃ pc ∈ ([⟨rB, p0⟩] : List (View.Piece (Elt F) S1x2048x128 .f32)), y ∈ pc.1.set :=
  View.cover_of_tiled [⟨rB, p0⟩] S1x2048x128.size (by rfl) y

set_option maxHeartbeats 1000000 in
/-- The body on whole staging memrefs, the inputs' at contents `x0`, `x1`, `x2` and the output's at anything, runs to
    the continuation holding the inputs' as they were and the output's at `attnOut x0 x1 x2`. -/
theorem attnKernel (c : Dev nD) (E : Set ℕ) (i : grid1.Coords) (arg2 : Memref sig .tc .vmem S1x2048x128 .bf16) (harg2 : arg2.IsWhole)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .f32) (harg5 : arg5.IsWhole)
    (x0 x1 x2 : Vec F S1x2048x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (attnOut x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (attnCover _)

/-- The parts of the projected array's ownership the three input windows hold: a half, a quarter, a quarter. -/
def attnShare : Fin cfg1.W → PosShare TreeShare
  | ⟨0, _⟩ => fullShare.left
  | ⟨1, _⟩ => fullShare.right.left
  | ⟨2, _⟩ => fullShare.right.right
  | ⟨3, _⟩ => fullShare

/-- The proof data of the attention's pipeline on core `c`: the arrays as the call finds them; after the body at
    point `t` each input's buffer at its block and the output's at `attnOut` of the three blocks; the invariant the
    scoped rest and the generator register, untouched; nothing owed; the inputs' shares `attnShare`. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnOut (attnBlk V c 0 t) (attnBlk V c 1 t) (attnBlk V c 2 t)
  Φ _ := Pipeline.ΦA spec1 c
  q := attnShare
  owed _ := 0

theorem attnA_eq (c : Dev nD) (w : Fin cfg1.W) : (attnDat V c).A w = V c (Pipeline.arrRef spec1 w) := by
  dsimp only [attnDat]
theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) :
    (attnDat V c).after 3 t = attnOut (attnBlk V c 0 t) (attnBlk V c 1 t) (attnBlk V c 2 t) := by dsimp only [attnDat]

theorem attnBefore0 (c : Dev nD) (t : Fin cfg1.N) (d) : (attnDat V c).before 0 t d = attnBlk V c 0 t :=
  attnBefore0_of V (attnDat V c) (attnA_eq V c 0) (attnAfter0 V c) t d
theorem attnBefore1 (c : Dev nD) (t : Fin cfg1.N) (d) : (attnDat V c).before 1 t d = attnBlk V c 1 t :=
  attnBefore1_of V (attnDat V c) (attnA_eq V c 1) (attnAfter1 V c) t d
theorem attnBefore2 (c : Dev nD) (t : Fin cfg1.N) (d) : (attnDat V c).before 2 t d = attnBlk V c 2 t :=
  attnBefore2_of V (attnDat V c) (attnA_eq V c 2) (attnAfter2 V c) t d

/-- What the body is called with at point `t`, -/
def attnPre (c : Dev nD) (t : Fin cfg1.N) : sProp 𝕄 :=
  iprop((attnDat V c).Φ t.castSucc ∗ (attnDat V c).owesAt () t.castSucc
    ∗ (∃ d, owns (c : Thread nD τ) (st1_0 t) fullShare ((attnDat V c).before 0 t d))
    ∗ (∃ d, owns (c : Thread nD τ) (st1_1 t) fullShare ((attnDat V c).before 1 t d))
    ∗ (∃ d, owns (c : Thread nD τ) (st1_2 t) fullShare ((attnDat V c).before 2 t d))
    ∗ (∃ d, owns (c : Thread nD τ) (st1_3 t) fullShare ((attnDat V c).before 3 t d)))

/-- and what it returns. -/
def attnPost (c : Dev nD) (t : Fin cfg1.N) : sProp 𝕄 :=
  iprop((attnDat V c).Φ t.succ ∗ (attnDat V c).owesAt () t.succ
    ∗ owns (c : Thread nD τ) (st1_0 t) fullShare ((attnDat V c).after 0 t)
    ∗ owns (c : Thread nD τ) (st1_1 t) fullShare ((attnDat V c).after 1 t)
    ∗ owns (c : Thread nD τ) (st1_2 t) fullShare ((attnDat V c).after 2 t)
    ∗ owns (c : Thread nD τ) (st1_3 t) fullShare ((attnDat V c).after 3 t))

/-- The body at any point: the inputs' memrefs hold their blocks, so `attnKernel` applies; the invariant and the
    core's dues pass through unread. -/
theorem attnBody (c : Dev nD) (t : Fin cfg1.N) :
    attnPre V c t ⊢ wp frame (wpE (defs₀ (F := F)) Variants.none c none) Set.univ (bodyAt1 t) (fun _ => attnPost V c t) := by
  unfold attnPre attnPost bodyAt1
  simp only [attnBefore0, attnBefore1, attnBefore2]
  rw [show (attnDat V c).Φ t.succ = (attnDat V c).Φ t.castSucc from rfl,
    show (attnDat V c).owesAt () t.succ = (attnDat V c).owesAt () t.castSucc from rfl,
    attnAfter0, attnAfter1, attnAfter2, attnAfter3]
  iintro ⟨HΦ, Ho, ⟨%d0, H0⟩, ⟨%d1, H1⟩, ⟨%d2, H2⟩, ⟨%d3, H3⟩⟩
  iapply (attnKernel c Set.univ _ _ _ _ _ _ _ _ _ (attnBlk V c 0 t) (attnBlk V c 1 t) (attnBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem attnObligation (c : Dev nD) : BodyObligation (attnDat (F := F) V c) (defs₀ (F := F)) Variants.none () Set.univ := fun t => by
  rw [bigSep_W1, bigSep_W1]
  exact attnBody V c t

end

end Cert.KernelIdeal.Fr

end
-- ==== Proof.Run.lean ====
/-
  The whole program as a run: four host reshapes/transposes, the projection call, one host reshape, the attention
  call.  The TensorCore's buffer contents at each boundary are a fold from the launch memory: a host stretch applies
  its operations; the projection call leaves its output array at what its eight blocks' write-backs make of it and
  every other buffer as entered; the attention call likewise leaves its output array at what its sixteen write-backs
  make of it.  The attention call reads ONE array through three windows, so at its entry that array's ownership is
  dealt among them (a half, a quarter, a quarter) and rejoined at the exit.
  Concluded: every weakly fair execution terminates without fault with every unscoped buffer at the last contents of
  the fold; in particular the two arguments as launched, and the result at the attention call's written-back array.
-/
import proofs.«176862_j63848983822744_2_alg».proof.Proof.Gen.KernelIdeal.Launch
import proofs.«176862_j63848983822744_2_alg».proof.Proof.Gen.KernelIdeal.Skeleton
import proofs.«176862_j63848983822744_2_alg».proof.Proof.Gen.KernelIdeal.Points
import proofs.«176862_j63848983822744_2_alg».proof.Proof.Region0
import proofs.«176862_j63848983822744_2_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (projDat (V1 m ρ) c).arrAt w cfg0.N
theorem W2_arr (c : Dev nD) (w : Fin cfg0.W) :
    W2 m ρ c (Proc.devRef .tc (Pipeline.arrRef spec0 w)) = (projDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (projDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- What the attention call leaves in its output array. -/
def attnFinal (c : Dev nD) : Buf (Elt F) ((c : Thread nD τ).loc main_v6) := (attnDat (V3 m ρ) c).arrAt 3 cfg1.N
/-- At the attention call's exit: the output array at what the pipeline leaves, every other buffer as entered. -/
def W4 (c : Dev nD) : Valuation τ sig (Elt F) := Function.update (W3 m ρ c) main_v6 (attnFinal m ρ c)
abbrev V4 : (c : Dev nD) → (b : Ref sig .tc) → Buf (Elt F) ((c : Thread nD τ).loc b) := fun c b => W4 m ρ c b
theorem W4_out (c : Dev nD) : W4 m ρ c main_v6 = attnFinal m ρ c := by
  unfold W4; exact Function.update_self ..
theorem W4_of_ne (c : Dev nD) (b : Ref sig .tc) (hb : b ≠ main_v6) : W4 m ρ c b = W3 m ρ c b := by
  unfold W4
  exact Function.update_of_ne (StableHlo.devRef_ne_of_ne hb : (Proc.devRef .tc b : DevRef τ sig) ≠ Proc.devRef .tc main_v6) _ _

/-! ## The attention call's one shared array: its ownership dealt among three windows and rejoined -/

section Shares
variable (V : (c : Dev nD) → (b : Ref sig .tc) → Buf (Elt F) ((c : Thread nD τ).loc b))

/-- The attention pipeline's arrays spelled out window by window: three parts of the projected array, the output whole. -/
theorem attnArrays_eq (c : Dev nD) (G : (w : Fin cfg1.W) → Buf (Elt F) ((cfg1.win w).arr.view.loc (c : Thread nD τ))) :
    ((attnDat V c).arrays G : sProp 𝕄) =
      iprop((((c : Thread nD τ).loc main_v5) ↦{fullShare.left} G 0) ∗ (((c : Thread nD τ).loc main_v5) ↦{fullShare.right.left} G 1)
        ∗ (((c : Thread nD τ).loc main_v5) ↦{fullShare.right.right} G 2) ∗ (((c : Thread nD τ).loc main_v6) ↦{fullShare} G 3)) := by
  unfold Dat.arrays
  rw [bigSep_W1]
  rw [(arr_whole1 0).set_eq_univ, (arr_whole1 3).set_eq_univ]
  rfl

/-- The distinct buffers behind the attention call's windows: the projected array and the output. -/
theorem attnArrBufs_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v5) ↦{fullShare} V' main_v5) ∗ (((c : Thread nD τ).loc main_v6) ↦{fullShare} V' main_v6)) := by
  unfold Pipeline.arrBufs
  rw [show Finset.univ.image (Pipeline.arrRef spec1) = {main_v5, main_v6} from by decide,
    bigSep_insert (by decide), bigSep_singleton]
  rfl

/-- A whole ownership is a half, a quarter and a quarter. -/
theorem split3 (ℓ : Loc nD τ sig) (f : Buf (Elt F) ℓ) :
    (ℓ ↦{fullShare} f : sProp 𝕄) ⊢ iprop((ℓ ↦{fullShare.left} f) ∗ (ℓ ↦{fullShare.right.left} f) ∗ (ℓ ↦{fullShare.right.right} f)) := by
  have h1 : (ℓ ↦{fullShare} f : sProp 𝕄) ⊢ iprop((ℓ ↦{fullShare.left} f) ∗ ℓ ↦{fullShare.right} f) :=
    (pointsTo_share (PosShare.mem_left_op_right fullShare)).1
  have h2 : (ℓ ↦{fullShare.right} f : sProp 𝕄) ⊢ iprop((ℓ ↦{fullShare.right.left} f) ∗ ℓ ↦{fullShare.right.right} f) :=
    (pointsTo_share (PosShare.mem_left_op_right fullShare.right)).1
  exact h1.trans (sep_mono .rfl h2)

/-- and back. -/
theorem join3 (ℓ : Loc nD τ sig) (f : Buf (Elt F) ℓ) :
    iprop((ℓ ↦{fullShare.left} f) ∗ (ℓ ↦{fullShare.right.left} f) ∗ (ℓ ↦{fullShare.right.right} f)) ⊢ (ℓ ↦{fullShare} f : sProp 𝕄) := by
  have h1 : iprop((ℓ ↦{fullShare.left} f) ∗ ℓ ↦{fullShare.right} f) ⊢ (ℓ ↦{fullShare} f : sProp 𝕄) :=
    (pointsTo_share (PosShare.mem_left_op_right fullShare)).2
  have h2 : iprop((ℓ ↦{fullShare.right.left} f) ∗ ℓ ↦{fullShare.right.right} f) ⊢ (ℓ ↦{fullShare.right} f : sProp 𝕄) :=
    (pointsTo_share (PosShare.mem_left_op_right fullShare.right)).2
  exact (sep_mono .rfl h2).trans h1

end Shares

/-! ## The attention call's arrays out of the unscoped buffers, and back -/

section AttnArrays
variable (V : (c : Dev nD) → (b : Ref sig .tc) → Buf (Elt F) ((c : Thread nD τ).loc b))

/-- The unscoped buffers are the two buffers behind the attention call's windows and the rest, -/
theorem attnSplit_to (c : Dev nD) (V' : (b : Ref sig .tc) → Buf (Elt F) ((c : Thread nD τ).loc b)) :
    (unscopedBufs (Ix := Unit) (Name := ℕ) (U := UR sig nD τ) (Lvl := ℕ) c V' : sProp 𝕄)
      ⊢ iprop((((c : Thread nD τ).loc main_v5) ↦{fullShare} V' main_v5) ∗ (((c : Thread nD τ).loc main_v6) ↦{fullShare} V' main_v6)
          ∗ Pipeline.unscopedRest spec1 c V') := by
  have h : (unscopedBufs (Ix := Unit) (Name := ℕ) (U := UR sig nD τ) (Lvl := ℕ) c V' : sProp 𝕄)
      = iprop(Pipeline.arrBufs spec1 c V' ∗ Pipeline.unscopedRest spec1 c V') :=
    Pipeline.unscopedBufs_split₀ cfgs 1 winFacts₀1.arr_unscoped c V'
  rw [h, attnArrBufs_eq]
  iintro ⟨⟨H5, H6⟩, Hr⟩
  isplitl [H5]; · iexact H5
  isplitl [H6]; · iexact H6
  iexact Hr

/-- and back. -/
theorem attnSplit_from (c : Dev nD) (V' : (b : Ref sig .tc) → Buf (Elt F) ((c : Thread nD τ).loc b)) :
    iprop((((c : Thread nD τ).loc main_v5) ↦{fullShare} V' main_v5) ∗ (((c : Thread nD τ).loc main_v6) ↦{fullShare} V' main_v6)
          ∗ Pipeline.unscopedRest spec1 c V')
      ⊢ (unscopedBufs (Ix := Unit) (Name := ℕ) (U := UR sig nD τ) (Lvl := ℕ) c V' : sProp 𝕄) := by
  have h : (unscopedBufs (Ix := Unit) (Name := ℕ) (U := UR sig nD τ) (Lvl := ℕ) c V' : sProp 𝕄)
      = iprop(Pipeline.arrBufs spec1 c V' ∗ Pipeline.unscopedRest spec1 c V') :=
    Pipeline.unscopedBufs_split₀ cfgs 1 winFacts₀1.arr_unscoped c V'
  rw [h, attnArrBufs_eq]
  iintro ⟨H5, H6, Hr⟩
  isplitr [Hr]
  swap; · iexact Hr
  isplitl [H5]; · iexact H5
  iexact H6

/-- ENTRY: the unscoped buffers at `V` give the attention pipeline's arrays at its entry contents, the projected
    array's ownership dealt among the three windows on it, and the rest. -/
theorem attnEntry (c : Dev nD) :
    (unscopedBufs (Ix := Unit) (Name := ℕ) (U := UR sig nD τ) (Lvl := ℕ) c (V c) : sProp 𝕄)
      ⊢ iprop((attnDat V c).arrays (attnDat V c).A ∗ Pipeline.unscopedRest spec1 c (V c)) := by
  refine (attnSplit_to c (V c)).trans ?_
  rw [attnArrays_eq]
  refine (sep_mono (split3 _ _) .rfl).trans ?_
  iintro ⟨⟨Ha, Hb, Hc⟩, H6, Hr⟩
  isplitr [Hr]
  swap; · iexact Hr
  isplitl [Ha]; · iexact Ha
  isplitl [Hb]; · iexact Hb
  isplitl [Hc]; · iexact Hc
  iexact H6

end AttnArrays

/-- EXIT: the attention pipeline's arrays at their final contents — the three parts of the projected array, unchanged,
    rejoined; the output array at what the write-backs left — and the rest make the unscoped buffers at the last contents. -/
theorem attnExit (c : Dev nD) :
    iprop((attnDat (V3 m ρ) c).arrays ((attnDat (V3 m ρ) c).arrAt · cfg1.N) ∗ Pipeline.unscopedRest spec1 c (V3 m ρ c))
      ⊢ (unscopedBufs (Ix := Unit) (Name := ℕ) (U := UR sig nD τ) (Lvl := ℕ) c (V4 m ρ c) : sProp 𝕄) := by
  refine .trans ?_ (attnSplit_from c (V4 m ρ c))
  rw [attnArrays_eq]
  have e0 : (attnDat (V3 m ρ) c).arrAt 0 cfg1.N = V3 m ρ c main_v5 := ((attnDat (V3 m ρ) c).arrAt_in 0 rfl _).trans (attnA_eq (V3 m ρ) c 0)
  have e1 : (attnDat (V3 m ρ) c).arrAt 1 cfg1.N = V3 m ρ c main_v5 := ((attnDat (V3 m ρ) c).arrAt_in 1 rfl _).trans (attnA_eq (V3 m ρ) c 1)
  have e2 : (attnDat (V3 m ρ) c).arrAt 2 cfg1.N = V3 m ρ c main_v5 := ((attnDat (V3 m ρ) c).arrAt_in 2 rfl _).trans (attnA_eq (V3 m ρ) c 2)
  have e5 : V4 m ρ c main_v5 = V3 m ρ c main_v5 := W4_of_ne m ρ c main_v5 (by decide)
  have e6 : V4 m ρ c main_v6 = (attnDat (V3 m ρ) c).arrAt 3 cfg1.N := W4_out m ρ c
  have er : (Pipeline.unscopedRest (Ix := Unit) (Name := ℕ) (U := UR sig nD τ) (Lvl := ℕ) spec1 c (V4 m ρ c) : sProp 𝕄)
      = Pipeline.unscopedRest spec1 c (V3 m ρ c) := by
    unfold Pipeline.unscopedRest
    exact bigSep_congr fun b hb => by
      rw [show V4 m ρ c b = V3 m ρ c b from W4_of_ne m ρ c b fun e =>
        (Finset.mem_sdiff.mp hb).2 (Finset.mem_image.mpr ⟨3, Finset.mem_univ _, e.symm⟩)]
  rw [e0, e1, e2, e5, e6, er]
  refine .trans ?_ (sep_mono (join3 _ _) .rfl)
  iintro ⟨⟨Ha, Hb, Hc, H6⟩, Hr⟩
  isplitl [Ha Hb Hc]
  · isplitl [Ha]; · iexact Ha
    isplitl [Hb]; · iexact Hb
    iexact Hc
  isplitl [H6]; · iexact H6
  iexact Hr

/-! ## The proof data family and the thread state -/

/-- The prefetched tables' admissible contents: neither pipeline has a table. -/
abbrev adm : (p : Fin 2) → (pcfgs (F := F) p).Adm := fun p => (cfgs p).toPCfg_adm
/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => projDat (V1 m ρ) c
  | ⟨1, _⟩ => fun c => attnDat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The projection call over the thread state: entered from every unscoped buffer at `W1`, left at `W2`. -/
def projSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (projObligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W3`, left at `W4`; the projected
    array's ownership dealt among its three windows at the entry (`attnEntry`) and rejoined at the exit (`attnExit`). -/
def attnSeg : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (attnObligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := attnEntry (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs (Ix := Unit) (Name := ℕ) (U := UR sig nD τ) (Lvl := ℕ) c (V4 m ρ c) : sProp 𝕄) := attnExit m ρ c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (projSeg m ρ),
    .host (hseg hostOps1 hostOps1_sub hostOps1_fresh (W2 m ρ)),
    .region (attnSeg m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds every unscoped buffer at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the run leaves in the arguments and in the result -/

/-- The first host stretch writes only its four intermediates. -/
theorem hostOps0_keeps (W : Valuation τ sig (Elt F)) (b : Ref sig .tc) (h0 : b ≠ main_v0) (h1 : b ≠ main_v1) (h2 : b ≠ main_v2) (h3 : b ≠ main_v3) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))
/-- The second host stretch writes only the reshaped projection. -/
theorem hostOps1_keeps (W : Valuation τ sig (Elt F)) (b : Ref sig .tc) (h5 : b ≠ main_v5) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h5))

/-- The first argument reaches the end as launched: no host operation writes it and it is no array of either call. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := hostOps1_keeps _ main_arg0 (by decide)
    _ = W1 m ρ c (Proc.devRef .tc main_arg0) := W2_of_ne m ρ c main_arg0 (by decide)
    _ = W0 m ρ c (Proc.devRef .tc main_arg0) := hostOps0_keeps _ main_arg0 (by decide) (by decide) (by decide) (by decide)
    _ = m ((c : Thread nD τ).loc main_arg0) := rfl
/-- The second argument likewise. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := hostOps1_keeps _ main_arg1 (by decide)
    _ = W1 m ρ c (Proc.devRef .tc main_arg1) := W2_of_ne m ρ c main_arg1 (by decide)
    _ = W0 m ρ c (Proc.devRef .tc main_arg1) := hostOps0_keeps _ main_arg1 (by decide) (by decide) (by decide) (by decide)
    _ = m ((c : Thread nD τ).loc main_arg1) := rfl

/-- THE FRAME at any float instance: the program runs to the end, faults nowhere, and leaves its two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

/-- THE RUN WITH THE RESULT NAMED: as `frame`, and the result array ends at what the attention call's write-backs left. -/
theorem run_named : θ_run defs (onTc (τ := τ) (main (F := F))) ⟨m, fun _ => 0, ρ⟩ (fun r => ∀ c : Dev nD,
      r.2.mem ((c.tc : Thread nD τ).loc main_v6) = attnFinal m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v6 (by decide))).trans (W4_out m ρ c),
     (h c _ (mem_uc main_arg0 (by decide))).trans (W4_main_arg0 m ρ c),
     (h c _ (mem_uc main_arg1 (by decide))).trans (W4_main_arg1 m ρ c)⟩) (run_all m ρ)

end Cert.KernelIdeal.Fr

end
-- ==== Proof.BitsRegion0.lean ====
/-
  The projection call (the first of the program's two kernel calls), at any float instance, entered with the
  TensorCore's buffers at contents `V`.

  At grid point t the body reads the t-th block of 512 rows of the flattened input (all 1024 columns) and the whole
  permuted weight matrix (3072 × 1024; staged once, its block index never moves), and stores one value, a
  512 × 3072 block: the product of the row block with the transposed weights.  So after the body the output's staging
  buffer holds that one stored value whatever it held before, and the two inputs' buffers hold their blocks untouched.
  Stated here: the blocks, the body's triple, the proof data of the pipeline and its body obligation at every point.
-/
import proofs.«176862_j63848983822744_2_alg».proof.Proof.Gen.Kernel.Launch
import proofs.«176862_j63848983822744_2_alg».proof.Proof.Gen.Kernel.Skeleton
import proofs.«176862_j63848983822744_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the block at every point, for any proof data over `V` whose body leaves it in place. -/
theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

/-- The weights' staging buffer holds the whole matrix at every point, fetched there (the first point) or not. -/
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-- The rectangles the body touches: each buffer whole. -/
abbrev rX : Rect S512x1024 := Rect.unit (s := S512x1024) ![0, 0] S512x1024.size inb_S512x1024_S512x1024_0_0
abbrev rW : Rect S3072x1024 := Rect.unit (s := S3072x1024) ![0, 0] S3072x1024.size inb_S3072x1024_S3072x1024_0_0
abbrev rO : Rect S512x3072 := Rect.unit (s := S512x3072) ![0, 0] S512x3072.size inb_S512x3072_S512x3072_0_0

/-- What the body leaves in the output's staging buffer: its one whole-buffer store. -/
def projOut (x0 : Vec F S512x1024 .f32) (x1 : Vec F S3072x1024 .f32) : Vec F S512x3072 .bf16 :=
  View.canon [⟨rO, k0_pay1 (View.ld x0 rX) (View.ld x1 rW)⟩]

/-- The one store covers the buffer. -/
theorem projCover (p0 : Vec F S512x3072 .bf16) (y : S512x3072.Idx) :
    ∃ pc ∈ ([⟨rO, p0⟩] : List (View.Piece (Elt F) S512x3072 .bf16)), y ∈ pc.1.set :=
  View.cover_of_tiled [⟨rO, p0⟩] S512x3072.size (by rfl) y

set_option maxHeartbeats 1000000 in
/-- The body on whole staging memrefs, the inputs' at contents `x0`, `x1` and the output's at anything, runs to the
    continuation holding the inputs' as they were and the output's at `projOut x0 x1`. -/
theorem projKernel (c : Dev nD) (E : Set ℕ) (i : grid0.Coords) (arg1 : Memref sig .tc .vmem S512x1024 .f32) (harg1 : arg1.IsWhole)
    (arg2 : Memref sig .tc .vmem S3072x1024 .f32) (harg2 : arg2.IsWhole) (arg3 : Memref sig .tc .vmem S512x3072 .bf16) (harg3 : arg3.IsWhole)
    (x0 : Vec F S512x1024 .f32) (x1 : Vec F S3072x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-- The proof data of the projection's pipeline on core `c`: the arrays as the call finds them; after the body at
    point `t` each input's buffer at its block and the output's at `projOut` of the two blocks; the invariant the
    scoped rest and the generator register, untouched; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

theorem projA_eq (c : Dev nD) (w : Fin cfg0.W) : (projDat V c).A w = V c (Pipeline.arrRef spec0 w) := by
  dsimp only [projDat]
theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projOut (projBlk V c 0 t) (projBlk V c 1 t) := by dsimp only [projDat]

theorem projBefore0 (c : Dev nD) (t : Fin cfg0.N) (d) : (projDat V c).before 0 t d = projBlk V c 0 t :=
  projBefore0_of V (projDat V c) (projA_eq V c 0) (projAfter0 V c) t d
theorem projBefore1 (c : Dev nD) (t : Fin cfg0.N) (d) : (projDat V c).before 1 t d = projBlk V c 1 t :=
  projBefore1_of V (projDat V c) (projA_eq V c 1) (projAfter1 V c) t d

/-- What the body is called with at point `t`, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

/-- The body at any point: the inputs' memrefs hold their blocks, so `projKernel` applies; the invariant and the
    core's dues pass through unread. -/
theorem projBody (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1]
  rw [show (projDat V c).Φ t.succ = (projDat V c).Φ t.castSucc from rfl,
    show (projDat V c).owesAt () t.succ = (projDat V c).owesAt () t.castSucc from rfl,
    projAfter0, projAfter1, projAfter2]
  iintro ⟨HΦ, Ho, ⟨%d0, H0⟩, ⟨%d1, H1⟩, ⟨%d2, H2⟩⟩
  iapply (projKernel c Set.univ _ _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem projObligation (c : Dev nD) : BodyObligation (projDat (F := F) V c) (defs₀ (F := F)) Variants.none () Set.univ := fun t => by
  rw [bigSep_W0, bigSep_W0]
  exact projBody V c t

end

end Cert.Kernel.Fr

end
-- ==== Proof.BitsRegion1.lean ====
/-
  The attention call (the second of the program's two kernel calls), at any float instance, entered with the
  TensorCore's buffers at contents `V`.

  At grid point (b, j) the body reads three [1, 2048, 128] blocks of ONE array, the projected [2, 2048, 3072] tensor —
  batch b's columns 128·j … (queries of heads 2j, 2j+1), 128·(8+j) … (their keys) and 128·(16+j) … (their values) —
  and stores one [1, 2048, 128] block of the output.  Since the three input windows lie on one array, each holds a
  part of that array's ownership: a half, a quarter and a quarter.
  Stated here: the blocks, the body's triple, the proof data of the pipeline and its body obligation at every point.
-/
import proofs.«176862_j63848983822744_2_alg».proof.Proof.Gen.Kernel.Launch
import proofs.«176862_j63848983822744_2_alg».proof.Proof.Gen.Kernel.Skeleton
import proofs.«176862_j63848983822744_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, for any proof data over `V` whose body leaves it in place. -/
theorem attnBefore0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-- The rectangle the body touches in every buffer: the whole [1, 2048, 128] block. -/
abbrev rB : Rect S1x2048x128 := Rect.unit (s := S1x2048x128) ![0, 0, 0] S1x2048x128.size inb_S1x2048x128_S1x2048x128_0_0_0

/-- What the body leaves in the output's staging buffer: its one whole-buffer store. -/
def attnOut (x0 x1 x2 : Vec F S1x2048x128 .bf16) : Vec F S1x2048x128 .f32 :=
  View.canon [⟨rB, k1_pay1 (View.ld x0 rB) (View.ld x1 rB) (View.ld x2 rB)⟩]

/-- The one store covers the buffer. -/
theorem attnCover (p0 : Vec F S1x2048x128 .f32) (y : S1x2048x128.Idx) :
    ∃ pc ∈ ([⟨rB, p0⟩] : List (View.Piece (Elt F) S1x2048x128 .f32)), y ∈ pc.1.set :=
  View.cover_of_tiled [⟨rB, p0⟩] S1x2048x128.size (by rfl) y

set_option maxHeartbeats 1000000 in
/-- The body on whole staging memrefs, the inputs' at contents `x0`, `x1`, `x2` and the output's at anything, runs to
    the continuation holding the inputs' as they were and the output's at `attnOut x0 x1 x2`. -/
theorem attnKernel (c : Dev nD) (E : Set ℕ) (i : grid1.Coords) (arg2 : Memref sig .tc .vmem S1x2048x128 .bf16) (harg2 : arg2.IsWhole)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .f32) (harg5 : arg5.IsWhole)
    (x0 x1 x2 : Vec F S1x2048x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (attnOut x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (attnCover _)

/-- The parts of the projected array's ownership the three input windows hold: a half, a quarter, a quarter. -/
def attnShare : Fin cfg1.W → PosShare TreeShare
  | ⟨0, _⟩ => fullShare.left
  | ⟨1, _⟩ => fullShare.right.left
  | ⟨2, _⟩ => fullShare.right.right
  | ⟨3, _⟩ => fullShare

/-- The proof data of the attention's pipeline on core `c`: the arrays as the call finds them; after the body at
    point `t` each input's buffer at its block and the output's at `attnOut` of the three blocks; the invariant the
    scoped rest and the generator register, untouched; nothing owed; the inputs' shares `attnShare`. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnOut (attnBlk V c 0 t) (attnBlk V c 1 t) (attnBlk V c 2 t)
  Φ _ := Pipeline.ΦA spec1 c
  q := attnShare
  owed _ := 0

theorem attnA_eq (c : Dev nD) (w : Fin cfg1.W) : (attnDat V c).A w = V c (Pipeline.arrRef spec1 w) := by
  dsimp only [attnDat]
theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) :
    (attnDat V c).after 3 t = attnOut (attnBlk V c 0 t) (attnBlk V c 1 t) (attnBlk V c 2 t) := by dsimp only [attnDat]

theorem attnBefore0 (c : Dev nD) (t : Fin cfg1.N) (d) : (attnDat V c).before 0 t d = attnBlk V c 0 t :=
  attnBefore0_of V (attnDat V c) (attnA_eq V c 0) (attnAfter0 V c) t d
theorem attnBefore1 (c : Dev nD) (t : Fin cfg1.N) (d) : (attnDat V c).before 1 t d = attnBlk V c 1 t :=
  attnBefore1_of V (attnDat V c) (attnA_eq V c 1) (attnAfter1 V c) t d
theorem attnBefore2 (c : Dev nD) (t : Fin cfg1.N) (d) : (attnDat V c).before 2 t d = attnBlk V c 2 t :=
  attnBefore2_of V (attnDat V c) (attnA_eq V c 2) (attnAfter2 V c) t d

/-- What the body is called with at point `t`, -/
def attnPre (c : Dev nD) (t : Fin cfg1.N) : sProp 𝕄 :=
  iprop((attnDat V c).Φ t.castSucc ∗ (attnDat V c).owesAt () t.castSucc
    ∗ (∃ d, owns (c : Thread nD τ) (st1_0 t) fullShare ((attnDat V c).before 0 t d))
    ∗ (∃ d, owns (c : Thread nD τ) (st1_1 t) fullShare ((attnDat V c).before 1 t d))
    ∗ (∃ d, owns (c : Thread nD τ) (st1_2 t) fullShare ((attnDat V c).before 2 t d))
    ∗ (∃ d, owns (c : Thread nD τ) (st1_3 t) fullShare ((attnDat V c).before 3 t d)))

/-- and what it returns. -/
def attnPost (c : Dev nD) (t : Fin cfg1.N) : sProp 𝕄 :=
  iprop((attnDat V c).Φ t.succ ∗ (attnDat V c).owesAt () t.succ
    ∗ owns (c : Thread nD τ) (st1_0 t) fullShare ((attnDat V c).after 0 t)
    ∗ owns (c : Thread nD τ) (st1_1 t) fullShare ((attnDat V c).after 1 t)
    ∗ owns (c : Thread nD τ) (st1_2 t) fullShare ((attnDat V c).after 2 t)
    ∗ owns (c : Thread nD τ) (st1_3 t) fullShare ((attnDat V c).after 3 t))

/-- The body at any point: the inputs' memrefs hold their blocks, so `attnKernel` applies; the invariant and the
    core's dues pass through unread. -/
theorem attnBody (c : Dev nD) (t : Fin cfg1.N) :
    attnPre V c t ⊢ wp frame (wpE (defs₀ (F := F)) Variants.none c none) Set.univ (bodyAt1 t) (fun _ => attnPost V c t) := by
  unfold attnPre attnPost bodyAt1
  simp only [attnBefore0, attnBefore1, attnBefore2]
  rw [show (attnDat V c).Φ t.succ = (attnDat V c).Φ t.castSucc from rfl,
    show (attnDat V c).owesAt () t.succ = (attnDat V c).owesAt () t.castSucc from rfl,
    attnAfter0, attnAfter1, attnAfter2, attnAfter3]
  iintro ⟨HΦ, Ho, ⟨%d0, H0⟩, ⟨%d1, H1⟩, ⟨%d2, H2⟩, ⟨%d3, H3⟩⟩
  iapply (attnKernel c Set.univ _ _ _ _ _ _ _ _ _ (attnBlk V c 0 t) (attnBlk V c 1 t) (attnBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem attnObligation (c : Dev nD) : BodyObligation (attnDat (F := F) V c) (defs₀ (F := F)) Variants.none () Set.univ := fun t => by
  rw [bigSep_W1, bigSep_W1]
  exact attnBody V c t

end

end Cert.Kernel.Fr

end
-- ==== Proof.BitsRun.lean ====
/-
  The whole program as a run: four host reshapes/transposes, the projection call, one host reshape, the attention
  call.  The TensorCore's buffer contents at each boundary are a fold from the launch memory: a host stretch applies
  its operations; the projection call leaves its output array at what its eight blocks' write-backs make of it and
  every other buffer as entered; the attention call likewise leaves its output array at what its sixteen write-backs
  make of it.  The attention call reads ONE array through three windows, so at its entry that array's ownership is
  dealt among them (a half, a quarter, a quarter) and rejoined at the exit.
  Concluded: every weakly fair execution terminates without fault with every unscoped buffer at the last contents of
  the fold; in particular the two arguments as launched, and the result at the attention call's written-back array.
-/
import proofs.«176862_j63848983822744_2_alg».proof.Proof.Gen.Kernel.Launch
import proofs.«176862_j63848983822744_2_alg».proof.Proof.Gen.Kernel.Skeleton
import proofs.«176862_j63848983822744_2_alg».proof.Proof.Gen.Kernel.Points
import proofs.«176862_j63848983822744_2_alg».proof.Proof.BitsRegion0
import proofs.«176862_j63848983822744_2_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (projDat (V1 m ρ) c).arrAt w cfg0.N
theorem W2_arr (c : Dev nD) (w : Fin cfg0.W) :
    W2 m ρ c (Proc.devRef .tc (Pipeline.arrRef spec0 w)) = (projDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (projDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- What the attention call leaves in its output array. -/
def attnFinal (c : Dev nD) : Buf (Elt F) ((c : Thread nD τ).loc main_v6) := (attnDat (V3 m ρ) c).arrAt 3 cfg1.N
/-- At the attention call's exit: the output array at what the pipeline leaves, every other buffer as entered. -/
def W4 (c : Dev nD) : Valuation τ sig (Elt F) := Function.update (W3 m ρ c) main_v6 (attnFinal m ρ c)
abbrev V4 : (c : Dev nD) → (b : Ref sig .tc) → Buf (Elt F) ((c : Thread nD τ).loc b) := fun c b => W4 m ρ c b
theorem W4_out (c : Dev nD) : W4 m ρ c main_v6 = attnFinal m ρ c := by
  unfold W4; exact Function.update_self ..
theorem W4_of_ne (c : Dev nD) (b : Ref sig .tc) (hb : b ≠ main_v6) : W4 m ρ c b = W3 m ρ c b := by
  unfold W4
  exact Function.update_of_ne (StableHlo.devRef_ne_of_ne hb : (Proc.devRef .tc b : DevRef τ sig) ≠ Proc.devRef .tc main_v6) _ _

/-! ## The attention call's one shared array: its ownership dealt among three windows and rejoined -/

section Shares
variable (V : (c : Dev nD) → (b : Ref sig .tc) → Buf (Elt F) ((c : Thread nD τ).loc b))

/-- The attention pipeline's arrays spelled out window by window: three parts of the projected array, the output whole. -/
theorem attnArrays_eq (c : Dev nD) (G : (w : Fin cfg1.W) → Buf (Elt F) ((cfg1.win w).arr.view.loc (c : Thread nD τ))) :
    ((attnDat V c).arrays G : sProp 𝕄) =
      iprop((((c : Thread nD τ).loc main_v5) ↦{fullShare.left} G 0) ∗ (((c : Thread nD τ).loc main_v5) ↦{fullShare.right.left} G 1)
        ∗ (((c : Thread nD τ).loc main_v5) ↦{fullShare.right.right} G 2) ∗ (((c : Thread nD τ).loc main_v6) ↦{fullShare} G 3)) := by
  unfold Dat.arrays
  rw [bigSep_W1]
  rw [(arr_whole1 0).set_eq_univ, (arr_whole1 3).set_eq_univ]
  rfl

/-- The distinct buffers behind the attention call's windows: the projected array and the output. -/
theorem attnArrBufs_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v5) ↦{fullShare} V' main_v5) ∗ (((c : Thread nD τ).loc main_v6) ↦{fullShare} V' main_v6)) := by
  unfold Pipeline.arrBufs
  rw [show Finset.univ.image (Pipeline.arrRef spec1) = {main_v5, main_v6} from by decide,
    bigSep_insert (by decide), bigSep_singleton]
  rfl

/-- A whole ownership is a half, a quarter and a quarter. -/
theorem split3 (ℓ : Loc nD τ sig) (f : Buf (Elt F) ℓ) :
    (ℓ ↦{fullShare} f : sProp 𝕄) ⊢ iprop((ℓ ↦{fullShare.left} f) ∗ (ℓ ↦{fullShare.right.left} f) ∗ (ℓ ↦{fullShare.right.right} f)) := by
  have h1 : (ℓ ↦{fullShare} f : sProp 𝕄) ⊢ iprop((ℓ ↦{fullShare.left} f) ∗ ℓ ↦{fullShare.right} f) :=
    (pointsTo_share (PosShare.mem_left_op_right fullShare)).1
  have h2 : (ℓ ↦{fullShare.right} f : sProp 𝕄) ⊢ iprop((ℓ ↦{fullShare.right.left} f) ∗ ℓ ↦{fullShare.right.right} f) :=
    (pointsTo_share (PosShare.mem_left_op_right fullShare.right)).1
  exact h1.trans (sep_mono .rfl h2)

/-- and back. -/
theorem join3 (ℓ : Loc nD τ sig) (f : Buf (Elt F) ℓ) :
    iprop((ℓ ↦{fullShare.left} f) ∗ (ℓ ↦{fullShare.right.left} f) ∗ (ℓ ↦{fullShare.right.right} f)) ⊢ (ℓ ↦{fullShare} f : sProp 𝕄) := by
  have h1 : iprop((ℓ ↦{fullShare.left} f) ∗ ℓ ↦{fullShare.right} f) ⊢ (ℓ ↦{fullShare} f : sProp 𝕄) :=
    (pointsTo_share (PosShare.mem_left_op_right fullShare)).2
  have h2 : iprop((ℓ ↦{fullShare.right.left} f) ∗ ℓ ↦{fullShare.right.right} f) ⊢ (ℓ ↦{fullShare.right} f : sProp 𝕄) :=
    (pointsTo_share (PosShare.mem_left_op_right fullShare.right)).2
  exact (sep_mono .rfl h2).trans h1

end Shares

/-! ## The attention call's arrays out of the unscoped buffers, and back -/

section AttnArrays
variable (V : (c : Dev nD) → (b : Ref sig .tc) → Buf (Elt F) ((c : Thread nD τ).loc b))

/-- The unscoped buffers are the two buffers behind the attention call's windows and the rest, -/
theorem attnSplit_to (c : Dev nD) (V' : (b : Ref sig .tc) → Buf (Elt F) ((c : Thread nD τ).loc b)) :
    (unscopedBufs (Ix := Unit) (Name := ℕ) (U := UR sig nD τ) (Lvl := ℕ) c V' : sProp 𝕄)
      ⊢ iprop((((c : Thread nD τ).loc main_v5) ↦{fullShare} V' main_v5) ∗ (((c : Thread nD τ).loc main_v6) ↦{fullShare} V' main_v6)
          ∗ Pipeline.unscopedRest spec1 c V') := by
  have h : (unscopedBufs (Ix := Unit) (Name := ℕ) (U := UR sig nD τ) (Lvl := ℕ) c V' : sProp 𝕄)
      = iprop(Pipeline.arrBufs spec1 c V' ∗ Pipeline.unscopedRest spec1 c V') :=
    Pipeline.unscopedBufs_split₀ cfgs 1 winFacts₀1.arr_unscoped c V'
  rw [h, attnArrBufs_eq]
  iintro ⟨⟨H5, H6⟩, Hr⟩
  isplitl [H5]; · iexact H5
  isplitl [H6]; · iexact H6
  iexact Hr

/-- and back. -/
theorem attnSplit_from (c : Dev nD) (V' : (b : Ref sig .tc) → Buf (Elt F) ((c : Thread nD τ).loc b)) :
    iprop((((c : Thread nD τ).loc main_v5) ↦{fullShare} V' main_v5) ∗ (((c : Thread nD τ).loc main_v6) ↦{fullShare} V' main_v6)
          ∗ Pipeline.unscopedRest spec1 c V')
      ⊢ (unscopedBufs (Ix := Unit) (Name := ℕ) (U := UR sig nD τ) (Lvl := ℕ) c V' : sProp 𝕄) := by
  have h : (unscopedBufs (Ix := Unit) (Name := ℕ) (U := UR sig nD τ) (Lvl := ℕ) c V' : sProp 𝕄)
      = iprop(Pipeline.arrBufs spec1 c V' ∗ Pipeline.unscopedRest spec1 c V') :=
    Pipeline.unscopedBufs_split₀ cfgs 1 winFacts₀1.arr_unscoped c V'
  rw [h, attnArrBufs_eq]
  iintro ⟨H5, H6, Hr⟩
  isplitr [Hr]
  swap; · iexact Hr
  isplitl [H5]; · iexact H5
  iexact H6

/-- ENTRY: the unscoped buffers at `V` give the attention pipeline's arrays at its entry contents, the projected
    array's ownership dealt among the three windows on it, and the rest. -/
theorem attnEntry (c : Dev nD) :
    (unscopedBufs (Ix := Unit) (Name := ℕ) (U := UR sig nD τ) (Lvl := ℕ) c (V c) : sProp 𝕄)
      ⊢ iprop((attnDat V c).arrays (attnDat V c).A ∗ Pipeline.unscopedRest spec1 c (V c)) := by
  refine (attnSplit_to c (V c)).trans ?_
  rw [attnArrays_eq]
  refine (sep_mono (split3 _ _) .rfl).trans ?_
  iintro ⟨⟨Ha, Hb, Hc⟩, H6, Hr⟩
  isplitr [Hr]
  swap; · iexact Hr
  isplitl [Ha]; · iexact Ha
  isplitl [Hb]; · iexact Hb
  isplitl [Hc]; · iexact Hc
  iexact H6

end AttnArrays

/-- EXIT: the attention pipeline's arrays at their final contents — the three parts of the projected array, unchanged,
    rejoined; the output array at what the write-backs left — and the rest make the unscoped buffers at the last contents. -/
theorem attnExit (c : Dev nD) :
    iprop((attnDat (V3 m ρ) c).arrays ((attnDat (V3 m ρ) c).arrAt · cfg1.N) ∗ Pipeline.unscopedRest spec1 c (V3 m ρ c))
      ⊢ (unscopedBufs (Ix := Unit) (Name := ℕ) (U := UR sig nD τ) (Lvl := ℕ) c (V4 m ρ c) : sProp 𝕄) := by
  refine .trans ?_ (attnSplit_from c (V4 m ρ c))
  rw [attnArrays_eq]
  have e0 : (attnDat (V3 m ρ) c).arrAt 0 cfg1.N = V3 m ρ c main_v5 := ((attnDat (V3 m ρ) c).arrAt_in 0 rfl _).trans (attnA_eq (V3 m ρ) c 0)
  have e1 : (attnDat (V3 m ρ) c).arrAt 1 cfg1.N = V3 m ρ c main_v5 := ((attnDat (V3 m ρ) c).arrAt_in 1 rfl _).trans (attnA_eq (V3 m ρ) c 1)
  have e2 : (attnDat (V3 m ρ) c).arrAt 2 cfg1.N = V3 m ρ c main_v5 := ((attnDat (V3 m ρ) c).arrAt_in 2 rfl _).trans (attnA_eq (V3 m ρ) c 2)
  have e5 : V4 m ρ c main_v5 = V3 m ρ c main_v5 := W4_of_ne m ρ c main_v5 (by decide)
  have e6 : V4 m ρ c main_v6 = (attnDat (V3 m ρ) c).arrAt 3 cfg1.N := W4_out m ρ c
  have er : (Pipeline.unscopedRest (Ix := Unit) (Name := ℕ) (U := UR sig nD τ) (Lvl := ℕ) spec1 c (V4 m ρ c) : sProp 𝕄)
      = Pipeline.unscopedRest spec1 c (V3 m ρ c) := by
    unfold Pipeline.unscopedRest
    exact bigSep_congr fun b hb => by
      rw [show V4 m ρ c b = V3 m ρ c b from W4_of_ne m ρ c b fun e =>
        (Finset.mem_sdiff.mp hb).2 (Finset.mem_image.mpr ⟨3, Finset.mem_univ _, e.symm⟩)]
  rw [e0, e1, e2, e5, e6, er]
  refine .trans ?_ (sep_mono (join3 _ _) .rfl)
  iintro ⟨⟨Ha, Hb, Hc, H6⟩, Hr⟩
  isplitl [Ha Hb Hc]
  · isplitl [Ha]; · iexact Ha
    isplitl [Hb]; · iexact Hb
    iexact Hc
  isplitl [H6]; · iexact H6
  iexact Hr

/-! ## The proof data family and the thread state -/

/-- The prefetched tables' admissible contents: neither pipeline has a table. -/
abbrev adm : (p : Fin 2) → (pcfgs (F := F) p).Adm := fun p => (cfgs p).toPCfg_adm
/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => projDat (V1 m ρ) c
  | ⟨1, _⟩ => fun c => attnDat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The projection call over the thread state: entered from every unscoped buffer at `W1`, left at `W2`. -/
def projSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (projObligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W3`, left at `W4`; the projected
    array's ownership dealt among its three windows at the entry (`attnEntry`) and rejoined at the exit (`attnExit`). -/
def attnSeg : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (attnObligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := attnEntry (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs (Ix := Unit) (Name := ℕ) (U := UR sig nD τ) (Lvl := ℕ) c (V4 m ρ c) : sProp 𝕄) := attnExit m ρ c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (projSeg m ρ),
    .host (hseg hostOps1 hostOps1_sub hostOps1_fresh (W2 m ρ)),
    .region (attnSeg m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds every unscoped buffer at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the run leaves in the arguments and in the result -/

/-- The first host stretch writes only its four intermediates. -/
theorem hostOps0_keeps (W : Valuation τ sig (Elt F)) (b : Ref sig .tc) (h0 : b ≠ main_v0) (h1 : b ≠ main_v1) (h2 : b ≠ main_v2) (h3 : b ≠ main_v3) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))
/-- The second host stretch writes only the reshaped projection. -/
theorem hostOps1_keeps (W : Valuation τ sig (Elt F)) (b : Ref sig .tc) (h5 : b ≠ main_v5) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h5))

/-- The first argument reaches the end as launched: no host operation writes it and it is no array of either call. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := hostOps1_keeps _ main_arg0 (by decide)
    _ = W1 m ρ c (Proc.devRef .tc main_arg0) := W2_of_ne m ρ c main_arg0 (by decide)
    _ = W0 m ρ c (Proc.devRef .tc main_arg0) := hostOps0_keeps _ main_arg0 (by decide) (by decide) (by decide) (by decide)
    _ = m ((c : Thread nD τ).loc main_arg0) := rfl
/-- The second argument likewise. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := hostOps1_keeps _ main_arg1 (by decide)
    _ = W1 m ρ c (Proc.devRef .tc main_arg1) := W2_of_ne m ρ c main_arg1 (by decide)
    _ = W0 m ρ c (Proc.devRef .tc main_arg1) := hostOps0_keeps _ main_arg1 (by decide) (by decide) (by decide) (by decide)
    _ = m ((c : Thread nD τ).loc main_arg1) := rfl

/-- THE FRAME at any float instance: the program runs to the end, faults nowhere, and leaves its two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

/-- THE RUN WITH THE RESULT NAMED: as `frame`, and the result array ends at what the attention call's write-backs left. -/
theorem run_named : θ_run defs (onTc (τ := τ) (main (F := F))) ⟨m, fun _ => 0, ρ⟩ (fun r => ∀ c : Dev nD,
      r.2.mem ((c.tc : Thread nD τ).loc main_v6) = attnFinal m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v6 (by decide))).trans (W4_out m ρ c),
     (h c _ (mem_uc main_arg0 (by decide))).trans (W4_main_arg0 m ρ c),
     (h c _ (mem_uc main_arg1 (by decide))).trans (W4_main_arg1 m ρ c)⟩) (run_all m ρ)

end Cert.Kernel.Fr

end
-- ==== Proof.Pay0.lean ====
/-
  The projection body's stored value, read at an entry.

  The body casts its two loaded blocks x : [512, 1024] and w : [3072, 1024] to their own shapes, rounds them to
  the narrower float type, multiplies them by a matrix product that contracts the second axis of both operands
  (x · wᵀ) into a zero accumulator, and rounds the result. On the extended reals a rounding is the identity, a
  cast to the same shape is the identity, and a product into the zero accumulator is the plain sum over the
  contracted axis. Hence entry (p, f) of the stored value is ∑ₑ x (p, e) · w (f, e).
-/
import proofs.«176862_j63848983822744_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.Attn.Pay

open Cert.KernelIdeal Cert.KernelIdeal.Gen Idealize.ShloMosaic Idealize.ShloMosaic.ValueIdx

/-- The left operand's row is the output's row. -/
theorem d0_lhs_0 (i : S512x3072.Idx) (q : dot_S512x1024_S3072x1024_S512x3072_1_1_0_0_n_n.contr.Idx) : (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl

/-- The left operand's column is the contraction coordinate. -/
theorem d0_lhs_1 (i : S512x3072.Idx) (q : dot_S512x1024_S3072x1024_S512x3072_1_1_0_0_n_n.contr.Idx) : (dot_S512x1024_S3072x1024_S512x3072_1_1_0_0_n_n.lhsIdx i q 1).val = (q ⟨0, by decide⟩).val :=
  dot_S512x1024_S3072x1024_S512x3072_1_1_0_0_n_n.lhsIdx_val_of_single rfl i q

/-- The right operand's row is the output's column. -/
theorem d0_rhs_0 (i : S512x3072.Idx) (q : dot_S512x1024_S3072x1024_S512x3072_1_1_0_0_n_n.contr.Idx) : (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl

/-- The right operand's column is the contraction coordinate. -/
theorem d0_rhs_1 (i : S512x3072.Idx) (q : dot_S512x1024_S3072x1024_S512x3072_1_1_0_0_n_n.contr.Idx) : (dot_S512x1024_S3072x1024_S512x3072_1_1_0_0_n_n.rhsIdx i q 1).val = (q ⟨0, by decide⟩).val :=
  dot_S512x1024_S3072x1024_S512x3072_1_1_0_0_n_n.rhsIdx_val_of_single rfl i q

/-- The product x · wᵀ into the zero accumulator, at an entry. -/
theorem d0_matmul_apply (a : FVec Ideal S512x1024 .bf16) (b : FVec Ideal S3072x1024 .bf16) (p : Fin 512) (f : Fin 3072) :
    matmul dot_S512x1024_S3072x1024_S512x3072_1_1_0_0_n_n none a b (constant S512x3072 .f32 0x00000000#32) (ix2 p f) = ∑ e : Fin 1024, a (ix2 p e) * b (ix2 f e) := by
  refine (Ideal.matmul_constant_zero_apply dot_S512x1024_S3072x1024_S512x3072_1_1_0_0_n_n none a b (ix2 p f)).trans ?_
  rw [← Equiv.sum_comp (ValueIdx.contrEquiv1 dot_S512x1024_S3072x1024_S512x3072_1_1_0_0_n_n 1024 rfl rfl).symm]
  refine Finset.sum_congr rfl fun e _ => ?_
  have he := ValueIdx.contrEquiv1_symm_val dot_S512x1024_S3072x1024_S512x3072_1_1_0_0_n_n 1024 rfl rfl e
  have el : dot_S512x1024_S3072x1024_S512x3072_1_1_0_0_n_n.lhsIdx (ix2 p f) ((ValueIdx.contrEquiv1 dot_S512x1024_S3072x1024_S512x3072_1_1_0_0_n_n 1024 rfl rfl).symm e) = ix2 p e := funext fun c => Fin.ext (by
    match c with
    | ⟨0, _⟩ => exact d0_lhs_0 _ _
    | ⟨1, _⟩ => exact (d0_lhs_1 _ _).trans he)
  have er : dot_S512x1024_S3072x1024_S512x3072_1_1_0_0_n_n.rhsIdx (ix2 p f) ((ValueIdx.contrEquiv1 dot_S512x1024_S3072x1024_S512x3072_1_1_0_0_n_n 1024 rfl rfl).symm e) = ix2 f e := funext fun c => Fin.ext (by
    match c with
    | ⟨0, _⟩ => exact d0_rhs_0 _ _
    | ⟨1, _⟩ => exact (d0_rhs_1 _ _).trans he)
  rw [el, er]

/-- Entry (p, f) of the projection body's stored value is the inner product of row p of x with row f of w. -/
theorem pay0_apply (x0 : Vec Ideal S512x1024 .f32) (x1 : Vec Ideal S3072x1024 .f32) (p : Fin 512) (f : Fin 3072) :
    k0_pay1 (F := Ideal) x0 x1 (ix2 p f) = ∑ e : Fin 1024, x0 (ix2 p e) * x1 (ix2 f e) := by
  unfold k0_pay1
  simp only [shapeCast_self]
  exact d0_matmul_apply _ _ p f

end Cert.Attn.Pay

end
-- ==== Proof.ValueProj.lean ====
/-
  The projection call's output array after the call, entry by entry, on the extended reals.

  At grid point t the body stores, into rows 512·t … 512·t + 511 of the [4096, 3072] output, the product of the
  t-th block of 512 rows of the [4096, 1024] input with the transposed [3072, 1024] weight matrix. Entry (p, f) of
  that block is the inner product of row p of the input block, which is row 512·t + p of the input, with row f of
  the weights. So what point t writes back is its block of ONE function of the two arrays,
      G (r, f) = ∑ₑ x (r, e) · w (f, e),
  and since row r of the output lies in the block of point r / 512, the blocks cover the output: after the call
  the output array is G.
-/
import proofs.«176862_j63848983822744_2_alg».proof.Proof.Region0
import proofs.«176862_j63848983822744_2_alg».proof.Proof.Pay0
import Idealize.ShloMosaic.Lib.Pipeline.Value
import Idealize.ShloMosaic.Lib.ValueIdx

noncomputable section

namespace Cert.KernelIdeal.Fr

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

/-- The zero offsets of a whole-buffer rectangle, as a constant function. -/
theorem projHz : (![0, 0] : Fin 2 → Nat) = fun _ => 0 := funext fun a => by fin_cases a <;> rfl

/-- The product x · wᵀ of the two arrays, entry by entry. -/
abbrev projG (x : S4096x1024.Idx → Elt Ideal .f32) (w : S3072x1024.Idx → Elt Ideal .f32) : S4096x3072.Idx → Elt Ideal .bf16 :=
  fun i => ∑ e : Fin 1024, x (ix2 (i 0) e) * w (ix2 (i 1) e)

/-- Entry (r, f) of the product is row r of x against row f of w. -/
theorem projG_apply (x : S4096x1024.Idx → Elt Ideal .f32) (w : S3072x1024.Idx → Elt Ideal .f32) (r : Fin 4096) (f : Fin 3072) :
    projG x w (ix2 r f) = ∑ e : Fin 1024, x (ix2 r e) * w (ix2 f e) := rfl

/-- The block indices at every grid point: the input's rows and the output's rows move with the point, the
    weights' block and every column block stay at zero. -/
theorem projIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point t writes back is block t of the product of the two arrays as the call finds them. -/
theorem projFlushed (c : Dev nD) (t : Fin cfg0.N) :
    (projDat (F := Ideal) V c).flushed 2 t
      = ((cfg0.win 2).blk t).view.read (Elt Ideal) (projG (V c main_v3) (V c main_v2)) := by
  show (cfg0.win 2).cut (grid0.coords t) ((projDat (F := Ideal) V c).after 2 t) = _
  rw [projAfter2]
  unfold projOut
  rw [View.canon_unit_zero projHz]
  simp only [View.ld_unit_zero (S := S512x1024) projHz, View.ld_unit_zero (S := S3072x1024) projHz]
  obtain ⟨e0, e1, e2, e3, e4, e5⟩ := projIdx t
  funext j
  show k0_pay1 (F := Ideal) (projBlk V c 0 t) (projBlk V c 1 t) j
    = projG (V c main_v3) (V c main_v2) (((cfg0.win 2).blk t).view.emb j)
  refine ((congrArg (k0_pay1 (F := Ideal) (projBlk V c 0 t) (projBlk V c 1 t)) (eq_ix2 j)).trans
    (Cert.Attn.Pay.pay0_apply _ _ (j 0) (j 1))).trans ?_
  refine Finset.sum_congr rfl fun e _ => ?_
  have h0 : ((cfg0.win 0).blk t).view.emb (ix2 (j 0) e) = ix2 (((cfg0.win 2).blk t).view.emb j 0) e := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * e.val = e.val; omega
  have h1 : ((cfg0.win 1).blk t).view.emb (ix2 (j 1) e) = ix2 (((cfg0.win 2).blk t).view.emb j 1) e := by
    funext a; apply Fin.ext
    match a with
    | ⟨0, _⟩ => show win0_1.index t (0 : Fin 2) * 3072 + 1 * (j 1).val = win0_2.index t (1 : Fin 2) * 3072 + 1 * (j 1).val; omega
    | ⟨1, _⟩ => show win0_1.index t (1 : Fin 2) * 1024 + 1 * e.val = e.val; omega
  have key : ∀ (X : S4096x1024.Idx → Elt Ideal .f32) (W : S3072x1024.Idx → Elt Ideal .f32),
      X (((cfg0.win 0).blk t).view.emb (ix2 (j 0) e)) * W (((cfg0.win 1).blk t).view.emb (ix2 (j 1) e))
        = X (ix2 (((cfg0.win 2).blk t).view.emb j 0) e) * W (ix2 (((cfg0.win 2).blk t).view.emb j 1) e) := by
    intro X W; exact congrArg₂ (· * ·) (congrArg X h0) (congrArg W h1)
  exact key (V c main_v3) (V c main_v2)

/-- An index of the output is in point t's block iff each coordinate is in the block's range on its axis. -/
theorem projMemBlk (t : Fin cfg0.N) (i : S4096x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v4).slice (win0_2.rect t)).set ↔ _
  rw [View.set_slice_whole, Rect.mem_set_unit]
  exact Iff.rfl

/-- Every index of the output is in some point's block: row r in the block of point r / 512. -/
theorem projCovered (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  have hN : (i 0).val / 512 < grid0.N := by rw [N_0]; omega
  refine ⟨⟨(i 0).val / 512, hN⟩, flush0_2 _, ?_⟩
  obtain ⟨e0, e1, e2, e3, e4, e5⟩ := projIdx ⟨(i 0).val / 512, hN⟩
  rw [projMemBlk]
  intro a
  match a with
  | ⟨0, _⟩ =>
    show win0_2.index ⟨(i 0).val / 512, hN⟩ (0 : Fin 2) * 512 ≤ (i 0).val ∧ (i 0).val < win0_2.index ⟨(i 0).val / 512, hN⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, hN⟩ (1 : Fin 2) * 3072 ≤ (i 1).val ∧ (i 1).val < win0_2.index ⟨(i 0).val / 512, hN⟩ (1 : Fin 2) * 3072 + 3072
    rw [e5]; omega

/-- The projection's output array after the call: the product of the input with the transposed weights, as the
    call finds them. -/
theorem projFinal (c : Dev nD) :
    (projDat (F := Ideal) V c).arrAt 2 cfg0.N = projG (V c main_v3) (V c main_v2) :=
  (projDat (F := Ideal) V c).arrAt_eq_of_cover 2 (projG (V c main_v3) (V c main_v2))
    (fun t _ => projFlushed V c t) (projCovered)

/-- The same at an entry. -/
theorem projFinal_apply (c : Dev nD) (r : Fin 4096) (f : Fin 3072) :
    (projDat (F := Ideal) V c).arrAt 2 cfg0.N (ix2 r f) = projG (V c main_v3) (V c main_v2) (ix2 r f) :=
  congrFun (projFinal V c) (ix2 r f)

end

end Cert.KernelIdeal.Fr

end
-- ==== Proof.Pay1.lean ====
/-
  The attention body's stored value, read at an entry.

  The body views its three loaded blocks q, k, v : [1, 2048, 128] as matrices [2048, 128], cuts each into a left
  and a right half [2048, 64] (one head each), and on each half forms kv = kᵀ · v (a product contracting the
  first axis of both operands, into a zero accumulator), rounds it, forms q · kv (a plain product into a zero
  accumulator) and scales by the constant with bit pattern 0x3E000000. The two results are put side by side
  along the columns and the matrix is stored as a [1, 2048, 128] block. On the extended reals a rounding is the
  identity and a product into the zero accumulator is the plain sum over the contracted axis. Hence the entry
  (0, s, h·64 + d) of the stored value, h ∈ {0, 1}, is
      (∑_{d'} q (0, s, h·64 + d') · (∑ₜ k (0, t, h·64 + d') · v (0, t, h·64 + d))) · c .
-/
import proofs.«176862_j63848983822744_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Attn.Pay

open Cert.KernelIdeal Cert.KernelIdeal.Gen Idealize.ShloMosaic Idealize.ShloMosaic.ValueIdx

/-! ## The product kᵀ · v : both operands contract their first axis -/

/-- The left operand's row is the contraction coordinate. -/
theorem d1_lhs_0 (i : S64x64.Idx) (q : dot_S2048x64_S2048x64_S64x64_0_0_1_1_n_n.contr.Idx) : (dot_S2048x64_S2048x64_S64x64_0_0_1_1_n_n.lhsIdx i q 0).val = (q ⟨0, by decide⟩).val :=
  dot_S2048x64_S2048x64_S64x64_0_0_1_1_n_n.lhsIdx_val_of_single rfl i q

/-- The left operand's column is the output's row. -/
theorem d1_lhs_1 (i : S64x64.Idx) (q : dot_S2048x64_S2048x64_S64x64_0_0_1_1_n_n.contr.Idx) : (dot_S2048x64_S2048x64_S64x64_0_0_1_1_n_n.lhsIdx i q 1).val = (i 0).val := by
  unfold DotDims.lhsIdx
  rw [dif_neg (show ¬(1 : Fin S2048x64.rank) ∈ dot_S2048x64_S2048x64_S64x64_0_0_1_1_n_n.lhsBatch by decide), dif_pos (show (1 : Fin S2048x64.rank) ∈ dot_S2048x64_S2048x64_S64x64_0_0_1_1_n_n.lhsNonContracting by decide)]
  rfl

/-- The right operand's row is the contraction coordinate. -/
theorem d1_rhs_0 (i : S64x64.Idx) (q : dot_S2048x64_S2048x64_S64x64_0_0_1_1_n_n.contr.Idx) : (dot_S2048x64_S2048x64_S64x64_0_0_1_1_n_n.rhsIdx i q 0).val = (q ⟨0, by decide⟩).val :=
  dot_S2048x64_S2048x64_S64x64_0_0_1_1_n_n.rhsIdx_val_of_single rfl i q

/-- The right operand's column is the output's column. -/
theorem d1_rhs_1 (i : S64x64.Idx) (q : dot_S2048x64_S2048x64_S64x64_0_0_1_1_n_n.contr.Idx) : (dot_S2048x64_S2048x64_S64x64_0_0_1_1_n_n.rhsIdx i q 1).val = (i 1).val := by
  unfold DotDims.rhsIdx
  rw [dif_neg (show ¬(1 : Fin S2048x64.rank) ∈ dot_S2048x64_S2048x64_S64x64_0_0_1_1_n_n.rhsBatch by decide), dif_pos (show (1 : Fin S2048x64.rank) ∈ dot_S2048x64_S2048x64_S64x64_0_0_1_1_n_n.rhsNonContracting by decide)]
  rfl

/-- The product aᵀ · b into the zero accumulator, at an entry. -/
theorem d1_matmul_apply (a b : FVec Ideal S2048x64 .bf16) (i j : Fin 64) :
    matmul dot_S2048x64_S2048x64_S64x64_0_0_1_1_n_n none a b (constant S64x64 .f32 0x00000000#32) (ix2 i j) = ∑ t : Fin 2048, a (ix2 t i) * b (ix2 t j) := by
  refine (Ideal.matmul_constant_zero_apply dot_S2048x64_S2048x64_S64x64_0_0_1_1_n_n none a b (ix2 i j)).trans ?_
  rw [← Equiv.sum_comp (ValueIdx.contrEquiv1 dot_S2048x64_S2048x64_S64x64_0_0_1_1_n_n 2048 rfl rfl).symm]
  refine Finset.sum_congr rfl fun t _ => ?_
  have ht := ValueIdx.contrEquiv1_symm_val dot_S2048x64_S2048x64_S64x64_0_0_1_1_n_n 2048 rfl rfl t
  have el : dot_S2048x64_S2048x64_S64x64_0_0_1_1_n_n.lhsIdx (ix2 i j) ((ValueIdx.contrEquiv1 dot_S2048x64_S2048x64_S64x64_0_0_1_1_n_n 2048 rfl rfl).symm t) = ix2 t i := funext fun c => Fin.ext (by
    match c with
    | ⟨0, _⟩ => exact (d1_lhs_0 _ _).trans ht
    | ⟨1, _⟩ => exact d1_lhs_1 _ _)
  have er : dot_S2048x64_S2048x64_S64x64_0_0_1_1_n_n.rhsIdx (ix2 i j) ((ValueIdx.contrEquiv1 dot_S2048x64_S2048x64_S64x64_0_0_1_1_n_n 2048 rfl rfl).symm t) = ix2 t j := funext fun c => Fin.ext (by
    match c with
    | ⟨0, _⟩ => exact (d1_rhs_0 _ _).trans ht
    | ⟨1, _⟩ => exact d1_rhs_1 _ _)
  rw [el, er]

/-! ## The plain product q · kv -/

/-- The left operand's row is the output's row. -/
theorem d2_lhs_0 (i : S2048x64.Idx) (q : dot_S2048x64_S64x64_S2048x64_1_0_0_1_n_n.contr.Idx) : (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl

/-- The left operand's column is the contraction coordinate. -/
theorem d2_lhs_1 (i : S2048x64.Idx) (q : dot_S2048x64_S64x64_S2048x64_1_0_0_1_n_n.contr.Idx) : (dot_S2048x64_S64x64_S2048x64_1_0_0_1_n_n.lhsIdx i q 1).val = (q ⟨0, by decide⟩).val :=
  dot_S2048x64_S64x64_S2048x64_1_0_0_1_n_n.lhsIdx_val_of_single rfl i q

/-- The right operand's row is the contraction coordinate. -/
theorem d2_rhs_0 (i : S2048x64.Idx) (q : dot_S2048x64_S64x64_S2048x64_1_0_0_1_n_n.contr.Idx) : (dot_S2048x64_S64x64_S2048x64_1_0_0_1_n_n.rhsIdx i q 0).val = (q ⟨0, by decide⟩).val :=
  dot_S2048x64_S64x64_S2048x64_1_0_0_1_n_n.rhsIdx_val_of_single rfl i q

/-- The right operand's column is the output's column. -/
theorem d2_rhs_1 (i : S2048x64.Idx) (q : dot_S2048x64_S64x64_S2048x64_1_0_0_1_n_n.contr.Idx) : (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The product a · b into the zero accumulator, at an entry. -/
theorem d2_matmul_apply (a : FVec Ideal S2048x64 .bf16) (b : FVec Ideal S64x64 .bf16) (s : Fin 2048) (j : Fin 64) :
    matmul dot_S2048x64_S64x64_S2048x64_1_0_0_1_n_n none a b (constant S2048x64 .f32 0x00000000#32) (ix2 s j) = ∑ e : Fin 64, a (ix2 s e) * b (ix2 e j) := by
  refine (Ideal.matmul_constant_zero_apply dot_S2048x64_S64x64_S2048x64_1_0_0_1_n_n none a b (ix2 s j)).trans ?_
  rw [← Equiv.sum_comp (ValueIdx.contrEquiv1 dot_S2048x64_S64x64_S2048x64_1_0_0_1_n_n 64 rfl rfl).symm]
  refine Finset.sum_congr rfl fun e _ => ?_
  have he := ValueIdx.contrEquiv1_symm_val dot_S2048x64_S64x64_S2048x64_1_0_0_1_n_n 64 rfl rfl e
  have el : dot_S2048x64_S64x64_S2048x64_1_0_0_1_n_n.lhsIdx (ix2 s j) ((ValueIdx.contrEquiv1 dot_S2048x64_S64x64_S2048x64_1_0_0_1_n_n 64 rfl rfl).symm e) = ix2 s e := funext fun c => Fin.ext (by
    match c with
    | ⟨0, _⟩ => exact d2_lhs_0 _ _
    | ⟨1, _⟩ => exact (d2_lhs_1 _ _).trans he)
  have er : dot_S2048x64_S64x64_S2048x64_1_0_0_1_n_n.rhsIdx (ix2 s j) ((ValueIdx.contrEquiv1 dot_S2048x64_S64x64_S2048x64_1_0_0_1_n_n 64 rfl rfl).symm e) = ix2 e j := funext fun c => Fin.ext (by
    match c with
    | ⟨0, _⟩ => exact (d2_rhs_0 _ _).trans he
    | ⟨1, _⟩ => exact d2_rhs_1 _ _)
  rw [el, er]

/-! ## One head: (q · round (kᵀ · v)) · c -/

/-- What the body computes on one half (one head) of the three matrices. -/
def halfVal (Q K V : FVec Ideal S2048x64 .bf16) : FVec Ideal S2048x64 .f32 :=
  mulf (matmul dot_S2048x64_S64x64_S2048x64_1_0_0_1_n_n none Q
      (truncf .bf16 (matmul dot_S2048x64_S2048x64_S64x64_0_0_1_1_n_n none K V (constant S64x64 .f32 0x00000000#32)) bitsLt_bf16_f32)
      (constant S2048x64 .f32 0x00000000#32))
    (broadcast S2048x64 (Scalar.ofBits .f32 0x3E000000#32))

/-- One head's value at an entry. -/
theorem halfVal_apply (Q K V : FVec Ideal S2048x64 .bf16) (s : Fin 2048) (d : Fin 64) :
    halfVal Q K V (ix2 s d)
      = (∑ e : Fin 64, Q (ix2 s e) * (∑ t : Fin 2048, K (ix2 t e) * V (ix2 t d))) * Ideal.ofBits .f32 0x3E000000#32 := by
  unfold halfVal
  rw [mulf_apply, d2_matmul_apply]
  refine congrArg₂ (· * ·) (Finset.sum_congr rfl fun e _ => ?_) rfl
  rw [truncf_apply, d1_matmul_apply]

/-! ## The halves of a block, read at an entry -/

/-- The left half of a block viewed as a matrix: entry (s, d) is the block's entry (0, s, c) with c = d. -/
theorem lo_blk (x : Vec Ideal S1x2048x128 .bf16) (s : Fin 2048) (d : Fin 64) (c : Fin 128) (hc : c.val = 0 + d.val) :
    extractStridedSlice S2048x64 ![0, 0] (shapeCast S2048x128 x shapeCasts_S1x2048x128_S2048x128) slices_S2048x128_o0_0_S2048x64 (ix2 s d)
      = x (ix3 (0 : Fin 1) s c) :=
  (slice2_axis1_apply 0 _ slices_S2048x128_o0_0_S2048x64 s d c hc).trans
    (shapeCast_1ab_ab_apply x shapeCasts_S1x2048x128_S2048x128 s c)

/-- The right half of a block viewed as a matrix: entry (s, d) is the block's entry (0, s, c) with c = 64 + d. -/
theorem hi_blk (x : Vec Ideal S1x2048x128 .bf16) (s : Fin 2048) (d : Fin 64) (c : Fin 128) (hc : c.val = 64 + d.val) :
    extractStridedSlice S2048x64 ![0, 64] (shapeCast S2048x128 x shapeCasts_S1x2048x128_S2048x128) slices_S2048x128_o0_64_S2048x64 (ix2 s d)
      = x (ix3 (0 : Fin 1) s c) :=
  (slice2_axis1_apply 64 _ slices_S2048x128_o0_64_S2048x64 s d c hc).trans
    (shapeCast_1ab_ab_apply x shapeCasts_S1x2048x128_S2048x128 s c)

/-! ## The stored value -/

/-- The stored value is the two heads' values side by side, as a block. -/
theorem k1_pay1_eq (q k v : Vec Ideal S1x2048x128 .bf16) :
    k1_pay1 (F := Ideal) q k v
      = shapeCast S1x2048x128
          (concatenate S2048x128 1
            [⟨S2048x64, halfVal
                (extractStridedSlice S2048x64 ![0, 0] (shapeCast S2048x128 q shapeCasts_S1x2048x128_S2048x128) slices_S2048x128_o0_0_S2048x64)
                (extractStridedSlice S2048x64 ![0, 0] (shapeCast S2048x128 k shapeCasts_S1x2048x128_S2048x128) slices_S2048x128_o0_0_S2048x64)
                (extractStridedSlice S2048x64 ![0, 0] (shapeCast S2048x128 v shapeCasts_S1x2048x128_S2048x128) slices_S2048x128_o0_0_S2048x64)⟩,
             ⟨S2048x64, halfVal
                (extractStridedSlice S2048x64 ![0, 64] (shapeCast S2048x128 q shapeCasts_S1x2048x128_S2048x128) slices_S2048x128_o0_64_S2048x64)
                (extractStridedSlice S2048x64 ![0, 64] (shapeCast S2048x128 k shapeCasts_S1x2048x128_S2048x128) slices_S2048x128_o0_64_S2048x64)
                (extractStridedSlice S2048x64 ![0, 64] (shapeCast S2048x128 v shapeCasts_S1x2048x128_S2048x128) slices_S2048x128_o0_64_S2048x64)⟩]
            concatenates_S2048x64_S2048x64_S2048x128_d1)
          shapeCasts_S2048x128_S1x2048x128 := rfl

/-- The left head: at a column c d = d (d < 64) the stored value is the left head's value. -/
theorem pay1_lo (q k v : Vec Ideal S1x2048x128 .bf16) (c : Fin 64 → Fin 128) (hc : ∀ d, (c d).val = 0 + d.val)
    (s : Fin 2048) (d : Fin 64) :
    k1_pay1 (F := Ideal) q k v (ix3 (0 : Fin 1) s (c d))
      = (∑ e : Fin 64, q (ix3 (0 : Fin 1) s (c e)) * (∑ t : Fin 2048, k (ix3 (0 : Fin 1) t (c e)) * v (ix3 (0 : Fin 1) t (c d))))
          * Ideal.ofBits .f32 0x3E000000#32 := by
  rw [k1_pay1_eq]
  refine (shapeCast_ab_1ab_apply _ shapeCasts_S2048x128_S1x2048x128 (0 : Fin 1) s (c d)).trans ?_
  refine (concatenate_pair_apply_left 1 _ _ concatenates_S2048x64_S2048x64_S2048x128_d1 (ix2 s (c d)) rfl (ix2 s d)
    (fun b => match b with
      | ⟨0, _⟩ => rfl
      | ⟨1, _⟩ => ((hc d).trans (Nat.zero_add _)).symm)).trans ?_
  refine (halfVal_apply _ _ _ s d).trans ?_
  refine congrArg₂ (· * ·) (Finset.sum_congr rfl fun e _ => ?_) rfl
  refine congrArg₂ (· * ·) (lo_blk q s e (c e) (hc e)) (Finset.sum_congr rfl fun t _ => ?_)
  exact congrArg₂ (· * ·) (lo_blk k t e (c e) (hc e)) (lo_blk v t d (c d) (hc d))

/-- The right head: at a column c d = 64 + d (d < 64) the stored value is the right head's value. -/
theorem pay1_hi (q k v : Vec Ideal S1x2048x128 .bf16) (c : Fin 64 → Fin 128) (hc : ∀ d, (c d).val = 64 + d.val)
    (s : Fin 2048) (d : Fin 64) :
    k1_pay1 (F := Ideal) q k v (ix3 (0 : Fin 1) s (c d))
      = (∑ e : Fin 64, q (ix3 (0 : Fin 1) s (c e)) * (∑ t : Fin 2048, k (ix3 (0 : Fin 1) t (c e)) * v (ix3 (0 : Fin 1) t (c d))))
          * Ideal.ofBits .f32 0x3E000000#32 := by
  rw [k1_pay1_eq]
  refine (shapeCast_ab_1ab_apply _ shapeCasts_S2048x128_S1x2048x128 (0 : Fin 1) s (c d)).trans ?_
  refine (concatenate_pair_apply_right 1 _ _ concatenates_S2048x64_S2048x64_S2048x128_d1 (ix2 s (c d)) rfl rfl (ix2 s d)
    (fun b hb => match b, hb with
      | ⟨0, _⟩, _ => rfl
      | ⟨1, _⟩, hb => absurd rfl hb)
    (by show d.val + 64 = (c d).val; rw [hc d, Nat.add_comm])).trans ?_
  refine (halfVal_apply _ _ _ s d).trans ?_
  refine congrArg₂ (· * ·) (Finset.sum_congr rfl fun e _ => ?_) rfl
  refine congrArg₂ (· * ·) (hi_blk q s e (c e) (hc e)) (Finset.sum_congr rfl fun t _ => ?_)
  exact congrArg₂ (· * ·) (hi_blk k t e (c e) (hc e)) (hi_blk v t d (c d) (hc d))

/-- Entry (0, s, h·64 + d) of the attention body's stored value. -/
theorem pay1_apply (q k v : Vec Ideal S1x2048x128 .bf16) (s : Fin 2048) (hf : Fin 2) (d : Fin 64) :
    k1_pay1 (F := Ideal) q k v (ix3 (0 : Fin 1) s (⟨hf.val * 64 + d.val, by omega⟩ : Fin 128))
      = (∑ d' : Fin 64, q (ix3 (0 : Fin 1) s (⟨hf.val * 64 + d'.val, by omega⟩ : Fin 128))
          * (∑ t : Fin 2048, k (ix3 (0 : Fin 1) t (⟨hf.val * 64 + d'.val, by omega⟩ : Fin 128))
              * v (ix3 (0 : Fin 1) t (⟨hf.val * 64 + d.val, by omega⟩ : Fin 128))))
        * Ideal.ofBits .f32 0x3E000000#32 := by
  have h : hf.val = 0 ∨ hf.val = 1 := by omega
  rcases h with h | h
  · exact pay1_lo q k v (fun d => (⟨hf.val * 64 + d.val, by omega⟩ : Fin 128))
      (fun d => by show hf.val * 64 + d.val = 0 + d.val; rw [h]) s d
  · exact pay1_hi q k v (fun d => (⟨hf.val * 64 + d.val, by omega⟩ : Fin 128))
      (fun d => by show hf.val * 64 + d.val = 64 + d.val; rw [h]) s d

end Cert.Attn.Pay

end
-- ==== Proof.ValueAttn.lean ====
/-
  The attention call's output array after the call, entry by entry, on the extended reals.

  At grid point (b, j) the body reads three [1, 2048, 128] blocks of the projected [2, 2048, 3072] array — batch b,
  columns 128·j …, 128·(8 + j) … and 128·(16 + j) … : the queries, keys and values of two heads — and stores one
  [1, 2048, 128] block of the [2, 2048, 1024] output, batch b, columns 128·j … . Inside a block the column
  h·64 + d (h ∈ {0, 1}) belongs to the block's head h, channel d; so output column n belongs to the 64-column
  group starting at n / 64 · 64, at channel n % 64. What point (b, j) writes back is therefore its block of ONE
  function of the projected array a,
      G (b, s, n) = (∑_{d'} a (b, s, n/64·64 + d') · (∑ₜ a (b, t, 1024 + n/64·64 + d') · a (b, t, 2048 + n/64·64 + n%64))) · c,
  and since the output entry (b, s, n) lies in the block of point (b, n / 128), the blocks cover the output: after
  the call the output array is G.
-/
import proofs.«176862_j63848983822744_2_alg».proof.Proof.Region1
import proofs.«176862_j63848983822744_2_alg».proof.Proof.Pay1
import Idealize.ShloMosaic.Lib.Pipeline.Value
import Idealize.ShloMosaic.Lib.ValueIdx

noncomputable section

namespace Cert.KernelIdeal.Fr

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

/-- The zero offsets of a whole-buffer rectangle, as a constant function. -/
theorem attnHz : (![0, 0, 0] : Fin 3 → Nat) = fun _ => 0 := funext fun a => by fin_cases a <;> rfl

/-- The attention of the projected array, entry by entry: queries in columns 0 … 1023, keys in 1024 … 2047,
    values in 2048 … 3071, each in 16 groups of 64 columns (one per head). -/
abbrev attnG (a : S2x2048x3072.Idx → Elt Ideal .bf16) : S2x2048x1024.Idx → Elt Ideal .f32 :=
  fun i => (∑ d' : Fin 64,
      a (ix3 (i 0) (i 1) (⟨(i 2).val / 64 * 64 + d'.val, by have h : (i 2).val < 1024 := (i 2).isLt; omega⟩ : Fin 3072))
        * (∑ t : Fin 2048,
            a (ix3 (i 0) t (⟨1024 + (i 2).val / 64 * 64 + d'.val, by have h : (i 2).val < 1024 := (i 2).isLt; omega⟩ : Fin 3072))
              * a (ix3 (i 0) t (⟨2048 + (i 2).val / 64 * 64 + (i 2).val % 64, by have h : (i 2).val < 1024 := (i 2).isLt; omega⟩ : Fin 3072))))
    * Ideal.ofBits .f32 0x3E000000#32

/-- The same at an entry given by its coordinates. -/
theorem attnG_apply (a : S2x2048x3072.Idx → Elt Ideal .bf16) (b : Fin 2) (s : Fin 2048) (n : Fin 1024) :
    attnG a (ix3 b s n) = (∑ d' : Fin 64,
      a (ix3 b s (⟨n.val / 64 * 64 + d'.val, by omega⟩ : Fin 3072))
        * (∑ t : Fin 2048,
            a (ix3 b t (⟨1024 + n.val / 64 * 64 + d'.val, by omega⟩ : Fin 3072))
              * a (ix3 b t (⟨2048 + n.val / 64 * 64 + n.val % 64, by omega⟩ : Fin 3072))))
    * Ideal.ofBits .f32 0x3E000000#32 := rfl

/-- The block indices at every grid point t = 8·b + j: every window is at batch b and row block 0; the three
    inputs' column blocks are j, 8 + j, 16 + j and the output's is j. -/
theorem attnIdx : ∀ t : Fin cfg1.N,
    win1_0.index t (0 : Fin 3) = t.val / 8 ∧ win1_0.index t (1 : Fin 3) = 0 ∧ win1_0.index t (2 : Fin 3) = t.val % 8
    ∧ win1_1.index t (0 : Fin 3) = t.val / 8 ∧ win1_1.index t (1 : Fin 3) = 0 ∧ win1_1.index t (2 : Fin 3) = 8 + t.val % 8
    ∧ win1_2.index t (0 : Fin 3) = t.val / 8 ∧ win1_2.index t (1 : Fin 3) = 0 ∧ win1_2.index t (2 : Fin 3) = 16 + t.val % 8
    ∧ win1_3.index t (0 : Fin 3) = t.val / 8 ∧ win1_3.index t (1 : Fin 3) = 0 ∧ win1_3.index t (2 : Fin 3) = t.val % 8 :=
  (by decide +kernel : ∀ t : Fin grid1.N, _)

section
variable (V : (c : Dev nD) → (b : Ref sig .tc) → Buf (Elt Ideal) ((c : Thread nD τ).loc b))

/-- What point t writes back is block t of the attention of the projected array as the call finds it. -/
theorem attnFlushed (c : Dev nD) (t : Fin cfg1.N) :
    (attnDat (F := Ideal) V c).flushed 3 t
      = ((cfg1.win 3).blk t).view.read (Elt Ideal) (attnG (V c main_v5)) := by
  show (cfg1.win 3).cut (grid1.coords t) ((attnDat (F := Ideal) V c).after 3 t) = _
  rw [attnAfter3]
  unfold attnOut
  rw [View.canon_unit_zero attnHz]
  simp only [View.ld_unit_zero (S := S1x2048x128) attnHz]
  obtain ⟨q0, q1, q2, k0, k1, k2, v0, v1, v2, o0, o1, o2⟩ := attnIdx t
  funext j
  show k1_pay1 (F := Ideal) (attnBlk V c 0 t) (attnBlk V c 1 t) (attnBlk V c 2 t) j
    = attnG (V c main_v5) (((cfg1.win 3).blk t).view.emb j)
  have hj0 : (j 0).val < 1 := (j 0).isLt
  have hj1 : (j 1).val < 2048 := (j 1).isLt
  have hj2 : (j 2).val < 128 := (j 2).isLt
  -- the column inside the block, split into head and channel
  have hjeq : j = ix3 (0 : Fin 1) (j 1)
      (⟨(⟨(j 2).val / 64, by omega⟩ : Fin 2).val * 64 + (⟨(j 2).val % 64, by omega⟩ : Fin 64).val, by omega⟩ : Fin 128) := by
    funext a; apply Fin.ext
    match a with
    | ⟨0, _⟩ => show (j 0).val = 0; omega
    | ⟨1, _⟩ => rfl
    | ⟨2, _⟩ => show (j 2).val = (j 2).val / 64 * 64 + (j 2).val % 64; omega
  refine ((congrArg (k1_pay1 (F := Ideal) (attnBlk V c 0 t) (attnBlk V c 1 t) (attnBlk V c 2 t)) hjeq).trans
    (Cert.Attn.Pay.pay1_apply _ _ _ (j 1) (⟨(j 2).val / 64, by omega⟩ : Fin 2) (⟨(j 2).val % 64, by omega⟩ : Fin 64))).trans ?_
  have key : ∀ (a : S2x2048x3072.Idx → Elt Ideal .bf16),
      (∑ d' : Fin 64,
        a (((cfg1.win 0).blk t).view.emb (ix3 (0 : Fin 1) (j 1) (⟨(j 2).val / 64 * 64 + d'.val, by omega⟩ : Fin 128)))
          * (∑ t' : Fin 2048,
              a (((cfg1.win 1).blk t).view.emb (ix3 (0 : Fin 1) t' (⟨(j 2).val / 64 * 64 + d'.val, by omega⟩ : Fin 128)))
                * a (((cfg1.win 2).blk t).view.emb (ix3 (0 : Fin 1) t' (⟨(j 2).val / 64 * 64 + (j 2).val % 64, by omega⟩ : Fin 128)))))
        * Ideal.ofBits .f32 0x3E000000#32
      = attnG a (((cfg1.win 3).blk t).view.emb j) := by
    intro a
    refine congrArg₂ (· * ·) (Finset.sum_congr rfl fun d' _ => ?_) rfl
    have hd' : d'.val < 64 := d'.isLt
    have hq : ((cfg1.win 0).blk t).view.emb (ix3 (0 : Fin 1) (j 1) (⟨(j 2).val / 64 * 64 + d'.val, by omega⟩ : Fin 128))
        = ix3 (((cfg1.win 3).blk t).view.emb j 0) (((cfg1.win 3).blk t).view.emb j 1)
            (⟨(((cfg1.win 3).blk t).view.emb j 2).val / 64 * 64 + d'.val,
              by have h : (((cfg1.win 3).blk t).view.emb j 2).val < 1024 := (((cfg1.win 3).blk t).view.emb j 2).isLt; omega⟩ : Fin 3072) := by
      funext ax; apply Fin.ext
      match ax with
      | ⟨0, _⟩ => show win1_0.index t (0 : Fin 3) * 1 + 1 * 0 = win1_3.index t (0 : Fin 3) * 1 + 1 * (j 0).val; omega
      | ⟨1, _⟩ => show win1_0.index t (1 : Fin 3) * 2048 + 1 * (j 1).val = win1_3.index t (1 : Fin 3) * 2048 + 1 * (j 1).val; omega
      | ⟨2, _⟩ => show win1_0.index t (2 : Fin 3) * 128 + 1 * ((j 2).val / 64 * 64 + d'.val) = (win1_3.index t (2 : Fin 3) * 128 + 1 * (j 2).val) / 64 * 64 + d'.val; omega
    refine congrArg₂ (· * ·) (congrArg a hq) (Finset.sum_congr rfl fun t' _ => ?_)
    have hk : ((cfg1.win 1).blk t).view.emb (ix3 (0 : Fin 1) t' (⟨(j 2).val / 64 * 64 + d'.val, by omega⟩ : Fin 128))
        = ix3 (((cfg1.win 3).blk t).view.emb j 0) t'
            (⟨1024 + (((cfg1.win 3).blk t).view.emb j 2).val / 64 * 64 + d'.val,
              by have h : (((cfg1.win 3).blk t).view.emb j 2).val < 1024 := (((cfg1.win 3).blk t).view.emb j 2).isLt; omega⟩ : Fin 3072) := by
      funext ax; apply Fin.ext
      match ax with
      | ⟨0, _⟩ => show win1_1.index t (0 : Fin 3) * 1 + 1 * 0 = win1_3.index t (0 : Fin 3) * 1 + 1 * (j 0).val; omega
      | ⟨1, _⟩ => show win1_1.index t (1 : Fin 3) * 2048 + 1 * t'.val = t'.val; omega
      | ⟨2, _⟩ => show win1_1.index t (2 : Fin 3) * 128 + 1 * ((j 2).val / 64 * 64 + d'.val) = 1024 + (win1_3.index t (2 : Fin 3) * 128 + 1 * (j 2).val) / 64 * 64 + d'.val; omega
    have hv : ((cfg1.win 2).blk t).view.emb (ix3 (0 : Fin 1) t' (⟨(j 2).val / 64 * 64 + (j 2).val % 64, by omega⟩ : Fin 128))
        = ix3 (((cfg1.win 3).blk t).view.emb j 0) t'
            (⟨2048 + (((cfg1.win 3).blk t).view.emb j 2).val / 64 * 64 + (((cfg1.win 3).blk t).view.emb j 2).val % 64,
              by have h : (((cfg1.win 3).blk t).view.emb j 2).val < 1024 := (((cfg1.win 3).blk t).view.emb j 2).isLt; omega⟩ : Fin 3072) := by
      funext ax; apply Fin.ext
      match ax with
      | ⟨0, _⟩ => show win1_2.index t (0 : Fin 3) * 1 + 1 * 0 = win1_3.index t (0 : Fin 3) * 1 + 1 * (j 0).val; omega
      | ⟨1, _⟩ => show win1_2.index t (1 : Fin 3) * 2048 + 1 * t'.val = t'.val; omega
      | ⟨2, _⟩ => show win1_2.index t (2 : Fin 3) * 128 + 1 * ((j 2).val / 64 * 64 + (j 2).val % 64) = 2048 + (win1_3.index t (2 : Fin 3) * 128 + 1 * (j 2).val) / 64 * 64 + (win1_3.index t (2 : Fin 3) * 128 + 1 * (j 2).val) % 64; omega
    exact congrArg₂ (· * ·) (congrArg a hk) (congrArg a hv)
  exact key (V c main_v5)

/-- An index of the output is in point t's block iff each coordinate is in the block's range on its axis. -/
theorem attnMemBlk (t : Fin cfg1.N) (i : S2x2048x1024.Idx) :
    i ∈ ((cfg1.win 3).blk t).view.set ↔ ∀ a : Fin 3, win1_3.index t a * S1x2048x128.size a ≤ (i a).val ∧ (i a).val < win1_3.index t a * S1x2048x128.size a + S1x2048x128.size a := by
  show i ∈ ((View.whole main_v6).slice (win1_3.rect t)).set ↔ _
  rw [View.set_slice_whole, Rect.mem_set_unit]
  exact Iff.rfl

/-- Every index of the output is in some point's block: entry (b, s, n) in the block of point 8·b + n / 128. -/
theorem attnCovered (i : S2x2048x1024.Idx) :
    ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  have hN : (i 0).val * 8 + (i 2).val / 128 < grid1.N := by rw [N_1]; omega
  refine ⟨⟨(i 0).val * 8 + (i 2).val / 128, hN⟩, flush1_3 _, ?_⟩
  obtain ⟨q0, q1, q2, k0, k1, k2, v0, v1, v2, o0, o1, o2⟩ := attnIdx ⟨(i 0).val * 8 + (i 2).val / 128, hN⟩
  rw [attnMemBlk]
  intro a
  match a with
  | ⟨0, _⟩ =>
    show win1_3.index ⟨(i 0).val * 8 + (i 2).val / 128, hN⟩ (0 : Fin 3) * 1 ≤ (i 0).val ∧ (i 0).val < win1_3.index ⟨(i 0).val * 8 + (i 2).val / 128, hN⟩ (0 : Fin 3) * 1 + 1
    rw [o0]; show ((i 0).val * 8 + (i 2).val / 128) / 8 * 1 ≤ (i 0).val ∧ (i 0).val < ((i 0).val * 8 + (i 2).val / 128) / 8 * 1 + 1; omega
  | ⟨1, _⟩ =>
    show win1_3.index ⟨(i 0).val * 8 + (i 2).val / 128, hN⟩ (1 : Fin 3) * 2048 ≤ (i 1).val ∧ (i 1).val < win1_3.index ⟨(i 0).val * 8 + (i 2).val / 128, hN⟩ (1 : Fin 3) * 2048 + 2048
    rw [o1]; omega
  | ⟨2, _⟩ =>
    show win1_3.index ⟨(i 0).val * 8 + (i 2).val / 128, hN⟩ (2 : Fin 3) * 128 ≤ (i 2).val ∧ (i 2).val < win1_3.index ⟨(i 0).val * 8 + (i 2).val / 128, hN⟩ (2 : Fin 3) * 128 + 128
    rw [o2]; show ((i 0).val * 8 + (i 2).val / 128) % 8 * 128 ≤ (i 2).val ∧ (i 2).val < ((i 0).val * 8 + (i 2).val / 128) % 8 * 128 + 128; omega

/-- The attention's output array after the call: the attention of the projected array as the call finds it. -/
theorem attnFinal_eq (c : Dev nD) :
    (attnDat (F := Ideal) V c).arrAt 3 cfg1.N = attnG (V c main_v5) :=
  (attnDat (F := Ideal) V c).arrAt_eq_of_cover 3 (attnG (V c main_v5))
    (fun t _ => attnFlushed V c t) (attnCovered)

/-- The same at an entry. -/
theorem attnFinal_apply (c : Dev nD) (b : Fin 2) (s : Fin 2048) (n : Fin 1024) :
    (attnDat (F := Ideal) V c).arrAt 3 cfg1.N (ix3 b s n) = attnG (V c main_v5) (ix3 b s n) :=
  congrFun (attnFinal_eq V c) (ix3 b s n)

end

end Cert.KernelIdeal.Fr

end
-- ==== Proof.Spec.lean ====
/-
  The mathematics both programs compute, stated once over the two argument arrays
  x : [2, 2048, 1024] and W : [3072, 1024] on the extended reals.

  Row f = h·192 + c·64 + d of W is head h's query (c = 0), key (c = 1) or value (c = 2) weight for channel d.
  The projections are  Q(b,s,h,d) = ∑ₑ x(b,s,e) · W(h·192 + d, e),  K with row h·192 + 64 + d,  V with row h·192 + 128 + d.
  Attention without a softmax at output (b, s, h·64 + d):
    the reference:  ∑ₜ ( (∑_{d'} Q(b,s,h,d') · K(b,t,h,d')) / 8 ) · V(b,t,h,d)            (scores first, then values)
    the kernel:     ( ∑_{d'} Q(b,s,h,d') · ( ∑ₜ K(b,t,h,d') · V(b,t,h,d) ) ) · (1/8)       (Kᵀ V first, then the query)
  The two are rearrangements of one finite double sum; they agree when every entry of x and W is a real number.
-/
import Idealize.ShloMosaic.PureOps.Ideal
import Idealize.ShloMosaic.Lib.ValueIdx

noncomputable section

open scoped BigOperators

namespace Cert.Attn

open Idealize.ShloMosaic Idealize.ShloMosaic.ValueIdx

/-- The argument arrays' index types, with literal extents. -/
abbrev XIdx : Type := (⟨3, ![2, 2048, 1024]⟩ : Shape).Idx
abbrev WIdx : Type := (⟨2, ![3072, 1024]⟩ : Shape).Idx

/-- Row `h·192 + c·64 + d` of the weight matrix: head `h`, part `c` (0 query, 1 key, 2 value), channel `d`. -/
def wrow (h : Fin 16) (c : Fin 3) (d : Fin 64) : Fin 3072 := ⟨h.val * 192 + c.val * 64 + d.val, by omega⟩

/-- One projected entry: position `(b, s)` of x against weight row `f`. -/
def proj (x : XIdx → EReal) (W : WIdx → EReal) (b : Fin 2) (s : Fin 2048) (f : Fin 3072) : EReal :=
  ∑ e : Fin 1024, x (ix3 b s e) * W (ix2 f e)

/-- Queries, keys and values per head. -/
def Qf (x : XIdx → EReal) (W : WIdx → EReal) (b : Fin 2) (s : Fin 2048) (h : Fin 16) (d : Fin 64) : EReal := proj x W b s (wrow h 0 d)
def Kf (x : XIdx → EReal) (W : WIdx → EReal) (b : Fin 2) (s : Fin 2048) (h : Fin 16) (d : Fin 64) : EReal := proj x W b s (wrow h 1 d)
def Vf (x : XIdx → EReal) (W : WIdx → EReal) (b : Fin 2) (s : Fin 2048) (h : Fin 16) (d : Fin 64) : EReal := proj x W b s (wrow h 2 d)

/-- The head and the channel of an output column `n = h·64 + d`. -/
def headOf (n : Fin 1024) : Fin 16 := ⟨n.val / 64, by omega⟩
def chanOf (n : Fin 1024) : Fin 64 := ⟨n.val % 64, by omega⟩

/-- The kernel's arrangement at (b, s, h, d): Kᵀ V first, then the query, then the scale 1/8 (the f32 word 0x3E000000). -/
def kerAt (x : XIdx → EReal) (W : WIdx → EReal) (b : Fin 2) (s : Fin 2048) (h : Fin 16) (d : Fin 64) : EReal :=
  (∑ d' : Fin 64, Qf x W b s h d' * (∑ t : Fin 2048, Kf x W b t h d' * Vf x W b t h d)) * Ideal.ofBits .f32 0x3E000000#32

/-- The reference's arrangement at (b, s, h, d): the scores divided by 8 (the f32 word 0x41000000), then the values. -/
def refAt (x : XIdx → EReal) (W : WIdx → EReal) (b : Fin 2) (s : Fin 2048) (h : Fin 16) (d : Fin 64) : EReal :=
  ∑ t : Fin 2048, Ideal.div (∑ d' : Fin 64, Qf x W b s h d' * Kf x W b t h d') (Ideal.ofBits .f32 0x41000000#32) * Vf x W b t h d

/-- The whole output arrays, index by index. -/
def kerG (x : XIdx → EReal) (W : WIdx → EReal) : XIdx → EReal :=
  fun i => kerAt x W (i 0) (i 1) (headOf (i 2)) (chanOf (i 2))
def refG (x : XIdx → EReal) (W : WIdx → EReal) : XIdx → EReal :=
  fun i => refAt x W (i 0) (i 1) (headOf (i 2)) (chanOf (i 2))

end Cert.Attn

end
-- ==== Proof.HostGlue.lean ====
/-
  The kernel program's host operations around its two calls, read at an index.

  Before the first call the weight matrix W : [3072, 1024], whose row h·192 + c·64 + d belongs to head h, part c
  (query, key, value) and channel d, is viewed as [16, 3, 64, 1024], its first two axes are exchanged to [3, 16, 64, 1024],
  and the result is flattened again to [3072, 1024]: row c·1024 + h·64 + d of the permuted matrix is row h·192 + c·64 + d of W
  (all queries first, then all keys, then all values). The array x : [2, 2048, 1024] is flattened to [4096, 1024]: row
  b·2048 + s is position (b, s). After the first call its [4096, 3072] result is viewed as [2, 2048, 3072] the same way.
  A reshape keeps the row-major position of every element; a transpose reads the operand at the permuted coordinates.
-/
import proofs.«176862_j63848983822744_2_alg».proof.Proof.Spec
import proofs.«176862_j63848983822744_2_alg».proof.Proof.Gen.KernelIdeal.Launch
import Idealize.ShloMosaic.Lib.StableHlo.Run
import Idealize.ShloMosaic.Lib.Pipeline.Value
import Idealize.ShloMosaic.Lib.ValueIdx

noncomputable section

namespace Cert.Attn.Host

open Cert.KernelIdeal Cert.KernelIdeal.Gen Idealize.ShloMosaic Idealize.ShloMosaic.TcCoe Idealize.ShloMosaic.ValueIdx

/-- After the first stretch of host operations the flattened x is x reshaped. -/
theorem x2d_eq (W : Valuation τ sig (Elt Ideal)) :
    (StableHlo.after (hostOps0 (F := Ideal)) W (Proc.devRef .tc main_v3) : S4096x1024.Idx → EReal)
      = shapeCast S4096x1024 (W (Proc.devRef .tc main_arg0) : S2x2048x1024.Idx → EReal) shapeCasts_S2x2048x1024_S4096x1024 := by
  after_results <;> rfl

/-- Row b·2048 + s of the flattened x is position (b, s) of x. -/
theorem x2d_apply (W : Valuation τ sig (Elt Ideal)) (b : Fin 2) (s : Fin 2048) (e : Fin 1024) :
    (StableHlo.after (hostOps0 (F := Ideal)) W (Proc.devRef .tc main_v3) : S4096x1024.Idx → EReal)
        (ix2 (⟨b.val * 2048 + s.val, by omega⟩ : Fin 4096) e)
      = (W (Proc.devRef .tc main_arg0) : S2x2048x1024.Idx → EReal) (ix3 b s e) := by
  rw [x2d_eq]
  exact shapeCast_apply _ shapeCasts_S2x2048x1024_S4096x1024 _ (ix3 b s e)
    (by rw [Shape.rowMajor_val_three, Shape.rowMajor_val_two]; rfl)

/-- After the first stretch of host operations the permuted weight matrix is W reshaped, transposed and reshaped. -/
theorem wperm_eq (W : Valuation τ sig (Elt Ideal)) :
    (StableHlo.after (hostOps0 (F := Ideal)) W (Proc.devRef .tc main_v2) : S3072x1024.Idx → EReal)
      = shapeCast S3072x1024 (transpose S3x16x64x1024 [1, 0, 2, 3]
          (shapeCast S16x3x64x1024 (W (Proc.devRef .tc main_arg1) : S3072x1024.Idx → EReal) shapeCasts_S3072x1024_S16x3x64x1024)
          transposes_S16x3x64x1024_S3x16x64x1024_1_0_2_3) shapeCasts_S3x16x64x1024_S3072x1024 := by
  after_results <;> rfl

/-- Row c·1024 + h·64 + d of the permuted weight matrix is row h·192 + c·64 + d of W. -/
theorem wperm_apply (W : Valuation τ sig (Elt Ideal)) (c : Fin 3) (h : Fin 16) (d : Fin 64) (e : Fin 1024) :
    (StableHlo.after (hostOps0 (F := Ideal)) W (Proc.devRef .tc main_v2) : S3072x1024.Idx → EReal)
        (ix2 (⟨c.val * 1024 + h.val * 64 + d.val, by omega⟩ : Fin 3072) e)
      = (W (Proc.devRef .tc main_arg1) : S3072x1024.Idx → EReal) (ix2 (Cert.Attn.wrow h c d) e) := by
  have hc := c.isLt; have hh := h.isLt; have hd := d.isLt; have he := e.isLt
  rw [wperm_eq]
  refine (shapeCast_apply _ shapeCasts_S3x16x64x1024_S3072x1024 _ (ix4 c h d e) ?_).trans ?_
  · rw [Shape.rowMajor_val_four, Shape.rowMajor_val_two]
    show ((c.val * 16 + h.val) * 64 + d.val) * 1024 + e.val = (c.val * 1024 + h.val * 64 + d.val) * 1024 + e.val
    omega
  refine (transpose_apply [1, 0, 2, 3] _ transposes_S16x3x64x1024_S3x16x64x1024_1_0_2_3 (ix4 c h d e) (ix4 h c d e)
    (fun a => match a with
      | ⟨0, _⟩ => rfl
      | ⟨1, _⟩ => rfl
      | ⟨2, _⟩ => rfl
      | ⟨3, _⟩ => rfl)).trans ?_
  refine shapeCast_apply _ shapeCasts_S3072x1024_S16x3x64x1024 (ix4 h c d e) (ix2 (Cert.Attn.wrow h c d) e) ?_
  rw [Shape.rowMajor_val_two, Shape.rowMajor_val_four]
  show (h.val * 192 + c.val * 64 + d.val) * 1024 + e.val = ((h.val * 3 + c.val) * 64 + d.val) * 1024 + e.val
  omega

/-- After the second stretch of host operations the three-axis projection is the first call's result reshaped. -/
theorem qkv3_eq (W : Valuation τ sig (Elt Ideal)) :
    (StableHlo.after (hostOps1 (F := Ideal)) W (Proc.devRef .tc main_v5) : S2x2048x3072.Idx → EReal)
      = shapeCast S2x2048x3072 (W (Proc.devRef .tc main_v4) : S4096x3072.Idx → EReal) shapeCasts_S4096x3072_S2x2048x3072 := by
  after_results <;> rfl

/-- Position (b, s) of the three-axis projection is row b·2048 + s of the first call's result. -/
theorem qkv3_apply (W : Valuation τ sig (Elt Ideal)) (b : Fin 2) (s : Fin 2048) (f : Fin 3072) :
    (StableHlo.after (hostOps1 (F := Ideal)) W (Proc.devRef .tc main_v5) : S2x2048x3072.Idx → EReal) (ix3 b s f)
      = (W (Proc.devRef .tc main_v4) : S4096x3072.Idx → EReal) (ix2 (⟨b.val * 2048 + s.val, by omega⟩ : Fin 4096) f) := by
  rw [qkv3_eq]
  exact shapeCast_apply _ shapeCasts_S4096x3072_S2x2048x3072 _ (ix2 (⟨b.val * 2048 + s.val, by omega⟩ : Fin 4096) f)
    (by rw [Shape.rowMajor_val_two, Shape.rowMajor_val_three]; rfl)

end Cert.Attn.Host

end
-- ==== Proof.KerValue.lean ====
/-
  The kernel program's result array is the specification's kernel arrangement `kerG` of its two arguments.

  The contents of the buffers are followed through the program's four stretches. The first host stretch flattens x to
  [4096, 1024] (row b·2048 + s is position (b, s)) and permutes the rows of W so that row p·1024 + h·64 + d is W's row
  h·192 + p·64 + d (part p = query, key, value; head h; channel d). The projection call leaves the product of the two,
  so its entry (b·2048 + s, p·1024 + h·64 + d) is x's row (b, s) against W's row h·192 + p·64 + d: the projection
  `proj x W b s (wrow h p d)`. The second host stretch views that array as [2, 2048, 3072]. The attention call leaves, at
  output (b, s, n), the sum over the 64 columns n/64·64 + d' of the query columns times the sum over positions t of key
  column 1024 + n/64·64 + d' times value column 2048 + n/64·64 + n%64, scaled by the word 0x3E000000. With h = n / 64 and
  d = n % 64 these three columns are p·1024 + h·64 + (d' or d) for p = 0, 1, 2, which is `kerAt x W b s h d`.
-/
import proofs.«176862_j63848983822744_2_alg».proof.Proof.Run
import proofs.«176862_j63848983822744_2_alg».proof.Proof.ValueProj
import proofs.«176862_j63848983822744_2_alg».proof.Proof.ValueAttn
import proofs.«176862_j63848983822744_2_alg».proof.Proof.HostGlue
import proofs.«176862_j63848983822744_2_alg».proof.Proof.Spec
import Idealize.ShloMosaic.Lib.ValueIdx

noncomputable section

open scoped BigOperators

namespace Cert.KernelIdeal.Fr

open Cert.KernelIdeal Cert.KernelIdeal.Gen Idealize.ShloMosaic Idealize.ShloMosaic.TcCoe Idealize.ShloMosaic.ValueIdx Cert.Attn

/-- Column p·1024 + h·64 + d of the projected array at position (b, s), as the attention call finds it, is x's row (b, s)
    against W's row h·192 + p·64 + d. -/
theorem qkv_at (m : (ℓ : Loc nD τ sig) → Buf (Elt Ideal) ℓ) (ρ : Dev nD → PrngReg) (c : Dev nD) (b : Fin 2) (s : Fin 2048)
    (p : Fin 3) (h : Fin 16) (d : Fin 64) :
    V3 (F := Ideal) m ρ c main_v5 (ix3 b s (⟨p.val * 1024 + h.val * 64 + d.val, by omega⟩ : Fin 3072))
      = Cert.Attn.proj (m ((c.tc : Thread nD τ).loc main_arg0)) (m ((c.tc : Thread nD τ).loc main_arg1)) b s (Cert.Attn.wrow h p d) := by
  -- the second host stretch: the three-axis view of the projection call's result
  refine (Cert.Attn.Host.qkv3_apply (W2 (F := Ideal) m ρ c) b s _).trans ?_
  -- the projection call's result is the product of the flattened x with the permuted W
  have e2 : W2 (F := Ideal) m ρ c (Proc.devRef .tc main_v4) = (projDat (F := Ideal) (V1 m ρ) c).arrAt 2 cfg0.N := W2_arr m ρ c 2
  rw [e2, projFinal]
  unfold Cert.Attn.proj
  show @Eq EReal _ _
  refine Finset.sum_congr rfl fun e _ => ?_
  -- the first host stretch: the flattened x and the permuted W at an entry
  exact congrArg₂ (fun a b => a * b) (Cert.Attn.Host.x2d_apply (W0 m ρ c) b s e) (Cert.Attn.Host.wperm_apply (W0 m ρ c) p h d e)

/-- The same with the column given as any index of that value. -/
theorem qkv_col (m : (ℓ : Loc nD τ sig) → Buf (Elt Ideal) ℓ) (ρ : Dev nD → PrngReg) (c : Dev nD) (b : Fin 2) (s : Fin 2048)
    (p : Fin 3) (h : Fin 16) (d : Fin 64) (f : Fin 3072) (hf : f.val = p.val * 1024 + h.val * 64 + d.val) :
    V3 (F := Ideal) m ρ c main_v5 (ix3 b s f)
      = Cert.Attn.proj (m ((c.tc : Thread nD τ).loc main_arg0)) (m ((c.tc : Thread nD τ).loc main_arg1)) b s (Cert.Attn.wrow h p d) := by
  have e : f = (⟨p.val * 1024 + h.val * 64 + d.val, by omega⟩ : Fin 3072) := Fin.ext hf
  rw [e]
  exact qkv_at m ρ c b s p h d

/-- What the attention call leaves in its output array is the kernel arrangement of the two arguments. -/
theorem attnFinal_kerG (m : (ℓ : Loc nD τ sig) → Buf (Elt Ideal) ℓ) (ρ : Dev nD → PrngReg) (c : Dev nD) :
    attnFinal (F := Ideal) m ρ c
      = Cert.Attn.kerG (m ((c.tc : Thread nD τ).loc main_arg0)) (m ((c.tc : Thread nD τ).loc main_arg1)) := by
  unfold attnFinal
  rw [attnFinal_eq]
  refine funext fun (i : S2x2048x1024.Idx) => ?_
  obtain ⟨b, s, n, rfl⟩ : ∃ (b : Fin 2) (s : Fin 2048) (n : Fin 1024), i = ix3 b s n := ⟨i 0, i 1, i 2, eq_ix3 i⟩
  refine (attnG_apply _ b s n).trans ?_
  show _ = Cert.Attn.kerAt _ _ b s (headOf n) (chanOf n)
  unfold Cert.Attn.kerAt Cert.Attn.Qf Cert.Attn.Kf Cert.Attn.Vf
  show @Eq EReal _ _
  have hn := n.isLt
  refine congrArg (fun z : EReal => z * Ideal.ofBits .f32 0x3E000000#32) ?_
  refine Finset.sum_congr rfl fun d' _ => ?_
  have hd' := d'.isLt
  -- the head is n / 64 and the output channel n % 64: the three columns are p·1024 + h·64 + channel for p = 0, 1, 2
  refine congrArg₂ (fun a b : EReal => a * b)
    (qkv_col m ρ c b s 0 (headOf n) d' _ (by show n.val / 64 * 64 + d'.val = 0 * 1024 + n.val / 64 * 64 + d'.val; omega))
    (Finset.sum_congr rfl fun t _ => ?_)
  exact congrArg₂ (fun a b : EReal => a * b)
    (qkv_col m ρ c b t 1 (headOf n) d' _ (by show 1024 + n.val / 64 * 64 + d'.val = 1 * 1024 + n.val / 64 * 64 + d'.val; omega))
    (qkv_col m ρ c b t 2 (headOf n) (chanOf n) _ (by show 2048 + n.val / 64 * 64 + n.val % 64 = 2 * 1024 + n.val / 64 * 64 + n.val % 64; omega))

end Cert.KernelIdeal.Fr

end
-- ==== Proof.RefRead.lean ====
/-
  The reference program, read index by index, is the specification's reference arrangement `refG`.

  The reference contracts x with W over the 1024 features into a [2, 2048, 3072] array, splits the 3072 columns as
  16 heads × 192, puts the head axis before the position axis, and cuts the 192 columns of a head into queries (0..63),
  keys (64..127) and values (128..191). Entry (b, h, s, j) of the transposed array is therefore row (b, s) of x against
  row h·192 + j of W (flat position ((b·2048 + s)·16 + h)·192 + j = (b·2048 + s)·3072 + (h·192 + j)). The scores are the
  contraction of queries with keys over the 64 channels, divided by the constant 8; the result is their contraction with
  the values over the 2048 positions, with the head axis moved back behind the positions and (head, channel) flattened
  to the column n = h·64 + d, so that h = n / 64 and d = n % 64.
-/
import proofs.«176862_j63848983822744_2_alg».proof.Proof.Spec
import proofs.«176862_j63848983822744_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.Attn.RefRead

open Idealize.ShloMosaic Idealize.ShloMosaic.ValueIdx Cert.ReferenceIdeal Cert.ReferenceIdeal.Read Cert.Attn

/-- The two argument arrays of the reference, on the extended reals. -/
abbrev XC : Type := (⟨S2x2048x1024, .f32⟩ : BufTy).Contents (Elt Ideal)
abbrev WC : Type := (⟨S3072x1024, .f32⟩ : BufTy).Contents (Elt Ideal)

/-- Entry (b, h, s, j) of the projected, reshaped and transposed array: row (b, s) of x against row h·192 + j of W. -/
theorem qkv_apply (x : XC) (W : WC) (b : Fin 2) (h : Fin 16) (s : Fin 2048) (j : Fin 192) :
    val_main_v2 (F := Ideal) x W (ix4 b h s j) = proj x W b s ⟨h.val * 192 + j.val, by omega⟩ := by
  rw [val_main_v2_apply, val_main_v1_apply, val_main_v0_apply]
  unfold proj
  refine Finset.sum_congr rfl fun e _ => ?_
  have hb := b.isLt; have hh := h.isLt; have hs := s.isLt; have hj := j.isLt
  have el : lidx_main_v0 (idx_main_v1 (idx_main_v2 (ix4 b h s j))) e = ix3 b s e := funext fun a => Fin.ext (by
    match a with
    | ⟨0, _⟩ => show (((b.val * 2048 + s.val) * 16 + h.val) * 192 + j.val) / 6291456 = b.val; omega
    | ⟨1, _⟩ => show (((b.val * 2048 + s.val) * 16 + h.val) * 192 + j.val) / 3072 % 2048 = s.val; omega
    | ⟨2, _⟩ => rfl)
  have er : ridx_main_v0 (idx_main_v1 (idx_main_v2 (ix4 b h s j))) e
      = ix2 (⟨h.val * 192 + j.val, by omega⟩ : Fin 3072) e := funext fun a => Fin.ext (by
    match a with
    | ⟨0, _⟩ => show (((b.val * 2048 + s.val) * 16 + h.val) * 192 + j.val) % 3072 = h.val * 192 + j.val; omega
    | ⟨1, _⟩ => rfl)
  rw [el, er]

/-- The first 64 columns of a head are its queries. -/
theorem q_apply (x : XC) (W : WC) (b : Fin 2) (h : Fin 16) (s : Fin 2048) (d : Fin 64) :
    val_main_v3 (F := Ideal) x W (ix4 b h s d) = Qf x W b s h d := by
  rw [val_main_v3_apply]
  have e : idx_main_v3 (ix4 b h s d) = ix4 b h s (⟨d.val, by omega⟩ : Fin 192) := funext fun a => Fin.ext (by
    match a with
    | ⟨0, _⟩ => rfl
    | ⟨1, _⟩ => rfl
    | ⟨2, _⟩ => rfl
    | ⟨3, _⟩ => rfl)
  rw [e, qkv_apply]
  unfold Qf wrow
  refine congrArg (proj x W b s) (Fin.ext ?_)
  show h.val * 192 + d.val = h.val * 192 + (0 : Fin 3).val * 64 + d.val
  simp

/-- Columns 64..127 of a head are its keys. -/
theorem k_apply (x : XC) (W : WC) (b : Fin 2) (h : Fin 16) (s : Fin 2048) (d : Fin 64) :
    val_main_v4 (F := Ideal) x W (ix4 b h s d) = Kf x W b s h d := by
  rw [val_main_v4_apply]
  have e : idx_main_v4 (ix4 b h s d) = ix4 b h s (⟨64 + d.val, by omega⟩ : Fin 192) := funext fun a => Fin.ext (by
    match a with
    | ⟨0, _⟩ => rfl
    | ⟨1, _⟩ => rfl
    | ⟨2, _⟩ => rfl
    | ⟨3, _⟩ => rfl)
  rw [e, qkv_apply]
  unfold Kf wrow
  refine congrArg (proj x W b s) (Fin.ext ?_)
  show h.val * 192 + (64 + d.val) = h.val * 192 + (1 : Fin 3).val * 64 + d.val
  simp; omega

/-- Columns 128..191 of a head are its values. -/
theorem v_apply (x : XC) (W : WC) (b : Fin 2) (h : Fin 16) (s : Fin 2048) (d : Fin 64) :
    val_main_v5 (F := Ideal) x W (ix4 b h s d) = Vf x W b s h d := by
  rw [val_main_v5_apply]
  have e : idx_main_v5 (ix4 b h s d) = ix4 b h s (⟨128 + d.val, by omega⟩ : Fin 192) := funext fun a => Fin.ext (by
    match a with
    | ⟨0, _⟩ => rfl
    | ⟨1, _⟩ => rfl
    | ⟨2, _⟩ => rfl
    | ⟨3, _⟩ => rfl)
  rw [e, qkv_apply]
  unfold Vf wrow
  refine congrArg (proj x W b s) (Fin.ext ?_)
  show h.val * 192 + (128 + d.val) = h.val * 192 + (2 : Fin 3).val * 64 + d.val
  simp; omega

/-- The scaled scores: query s against key t of head h over the 64 channels, divided by 8. -/
theorem score_apply (x : XC) (W : WC) (b : Fin 2) (h : Fin 16) (s t : Fin 2048) :
    val_main_v8 (F := Ideal) x W (ix4 b h s t)
      = Ideal.div (∑ d' : Fin 64, Qf x W b s h d' * Kf x W b t h d') (Ideal.ofBits .f32 0x41000000#32) := by
  rw [val_main_v8_apply, val_main_v7_apply, val_main_cst_apply, val_main_v6_apply, Ideal.hostDivf_def]
  refine congrArg (fun z => Ideal.div z _) ?_
  refine Finset.sum_congr rfl fun d' _ => ?_
  have el : lidx_main_v6 (ix4 b h s t) d' = ix4 b h s d' := funext fun a => Fin.ext (by
    match a with
    | ⟨0, _⟩ => rfl
    | ⟨1, _⟩ => rfl
    | ⟨2, _⟩ => rfl
    | ⟨3, _⟩ => rfl)
  have er : ridx_main_v6 (ix4 b h s t) d' = ix4 b h t d' := funext fun a => Fin.ext (by
    match a with
    | ⟨0, _⟩ => rfl
    | ⟨1, _⟩ => rfl
    | ⟨2, _⟩ => rfl
    | ⟨3, _⟩ => rfl)
  rw [el, er, q_apply, k_apply]

/-- The attention output before the last transpose: scores against values over the 2048 positions. -/
theorem attn_apply (x : XC) (W : WC) (b : Fin 2) (h : Fin 16) (s : Fin 2048) (d : Fin 64) :
    val_main_v9 (F := Ideal) x W (ix4 b h s d) = refAt x W b s h d := by
  rw [val_main_v9_apply]
  unfold refAt
  refine Finset.sum_congr rfl fun t _ => ?_
  have el : lidx_main_v9 (ix4 b h s d) t = ix4 b h s t := funext fun a => Fin.ext (by
    match a with
    | ⟨0, _⟩ => rfl
    | ⟨1, _⟩ => rfl
    | ⟨2, _⟩ => rfl
    | ⟨3, _⟩ => rfl)
  have er : ridx_main_v9 (ix4 b h s d) t = ix4 b h t d := funext fun a => Fin.ext (by
    match a with
    | ⟨0, _⟩ => rfl
    | ⟨1, _⟩ => rfl
    | ⟨2, _⟩ => rfl
    | ⟨3, _⟩ => rfl)
  rw [el, er, score_apply, v_apply]

/-- The reference's result is the specification's reference arrangement at every index. -/
theorem ref_eq (x : (⟨Cert.ReferenceIdeal.S2x2048x1024, .f32⟩ : BufTy).Contents (Elt Ideal))
    (W : (⟨Cert.ReferenceIdeal.S3072x1024, .f32⟩ : BufTy).Contents (Elt Ideal)) :
    Cert.ReferenceIdeal.Read.val_main_v11 (F := Ideal) x W = Cert.Attn.refG x W := by
  funext i
  obtain ⟨b, s, n, rfl⟩ : ∃ (b : Fin 2) (s : Fin 2048) (n : Fin 1024), i = ix3 b s n := ⟨i 0, i 1, i 2, eq_ix3 i⟩
  rw [val_main_v11_apply, val_main_v10_apply]
  have hb := b.isLt; have hs := s.isLt; have hn := n.isLt
  have e : idx_main_v10 (idx_main_v11 (ix3 b s n)) = ix4 b (headOf n) s (chanOf n) := funext fun a => Fin.ext (by
    match a with
    | ⟨0, _⟩ => show ((b.val * 2048 + s.val) * 1024 + n.val) / 2097152 = b.val; omega
    | ⟨1, _⟩ => show ((b.val * 2048 + s.val) * 1024 + n.val) / 64 % 16 = n.val / 64; omega
    | ⟨2, _⟩ => show ((b.val * 2048 + s.val) * 1024 + n.val) / 1024 % 2048 = s.val; omega
    | ⟨3, _⟩ => show ((b.val * 2048 + s.val) * 1024 + n.val) % 64 = n.val % 64; omega)
  rw [e, attn_apply]
  rfl

end Cert.Attn.RefRead

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.Algebra.lean ====
/-
  The two arrangements of attention without a softmax agree when every entry of x and W is a real number.

  With real queries q(d'), keys k(t, d') and values v(t) (for one batch entry b, position s, head h and output channel d;
  d' runs over the 64 channels, t over the 2048 positions) the kernel's entry is

      ( ∑_{d'} q(d') · ( ∑ₜ k(t, d') · v(t) ) ) · (1/8)

  and the reference's is

      ∑ₜ ( ( ∑_{d'} q(d') · k(t, d') ) / 8 ) · v(t).

  Both are (1/8) · ∑_{d'} ∑ₜ q(d') · k(t, d') · v(t): division by the real number 8 is multiplication by 1/8, products
  distribute over finite sums, and the two finite sums exchange. These are identities of real numbers; on the extended
  reals distributivity fails at the infinities, so the law is stated for arrays whose entries are real, where every
  projection is the coercion of a real sum. The f32 words 0x3E000000 and 0x41000000 denote 1/8 and 8.
-/
import proofs.«176862_j63848983822744_2_alg».proof.Proof.Spec
import proofs.«176862_j63848983822744_2_alg».proof.Proof.LibERealSum
import Mathlib.Tactic.Ring
import Mathlib.Tactic.NormNum

noncomputable section

open scoped BigOperators

namespace Cert.Attn

open Idealize.ShloMosaic Idealize.ShloMosaic.ValueIdx

/-- The f32 word 0x3E000000 (exponent field 124, zero fraction) is 2⁻³ = 1/8. -/
theorem ofBits_eighth : Ideal.ofBits .f32 0x3E000000#32 = ((1 / 8 : ℝ) : EReal) := by
  simp [Ideal.ofBits, Ideal.ieee, -EReal.coe_mul]; norm_num

/-- The f32 word 0x41000000 (exponent field 130, zero fraction) is 2³ = 8. -/
theorem ofBits_eight : Ideal.ofBits .f32 0x41000000#32 = ((8 : ℝ) : EReal) := by
  simp [Ideal.ofBits, Ideal.ieee, -EReal.coe_mul]; norm_num

/-- The exchange law on real numbers, read in the extended reals: contracting keys with values first and then the
    queries, scaled by 1/8, is contracting queries with keys first, dividing by 8, and then the values. -/
theorem swap_law {D T : Type*} [Fintype D] [Fintype T] (q : D → ℝ) (k : T → D → ℝ) (v : T → ℝ) :
    (∑ d', (q d' : EReal) * ∑ t, (k t d' : EReal) * (v t : EReal)) * ((1 / 8 : ℝ) : EReal)
      = ∑ t, Ideal.div (∑ d', (q d' : EReal) * (k t d' : EReal)) ((8 : ℝ) : EReal) * (v t : EReal) := by
  simp only [Ideal.div_coe (show (8 : ℝ) ≠ 0 by norm_num), ← EReal.coe_mul, ← Cert.Lib.ERealSum.coe_sum]
  refine congrArg _ ?_
  simp only [Finset.mul_sum, Finset.sum_mul]
  rw [Finset.sum_comm]
  exact Finset.sum_congr rfl fun t _ => Finset.sum_congr rfl fun d' _ => by ring

/-- A projection of real arrays is the coercion of the real sum. -/
theorem proj_coe (xr : XIdx → ℝ) (wr : WIdx → ℝ) (b : Fin 2) (s : Fin 2048) (f : Fin 3072) :
    proj (fun i => (xr i : EReal)) (fun i => (wr i : EReal)) b s f
      = ((∑ e : Fin 1024, xr (ix3 b s e) * wr (ix2 f e) : ℝ) : EReal) := by
  unfold proj
  simp only [← EReal.coe_mul, ← Cert.Lib.ERealSum.coe_sum]

/-- The two arrangements at one output entry, for real arrays. -/
theorem kerAt_eq_refAt (xr : XIdx → ℝ) (wr : WIdx → ℝ) (b : Fin 2) (s : Fin 2048) (h : Fin 16) (d : Fin 64) :
    kerAt (fun i => (xr i : EReal)) (fun i => (wr i : EReal)) b s h d
      = refAt (fun i => (xr i : EReal)) (fun i => (wr i : EReal)) b s h d := by
  unfold kerAt refAt Qf Kf Vf
  simp only [proj_coe]
  rw [ofBits_eighth, ofBits_eight]
  exact swap_law (fun d' => ∑ e : Fin 1024, xr (ix3 b s e) * wr (ix2 (wrow h 0 d') e))
    (fun t d' => ∑ e : Fin 1024, xr (ix3 b t e) * wr (ix2 (wrow h 1 d') e))
    (fun t => ∑ e : Fin 1024, xr (ix3 b t e) * wr (ix2 (wrow h 2 d) e))

/-- The kernel's arrangement and the reference's are the same array when every entry of x and W is a real number. -/
theorem ker_eq_ref (x : XIdx → EReal) (W : WIdx → EReal) (hx : ∀ i, ∃ r : ℝ, x i = (r : EReal))
    (hW : ∀ i, ∃ r : ℝ, W i = (r : EReal)) : kerG x W = refG x W := by
  choose xr hxr using hx
  choose wr hwr using hW
  obtain rfl : x = fun i => (xr i : EReal) := funext hxr
  obtain rfl : W = fun i => (wr i : EReal) := funext hwr
  funext i
  exact kerAt_eq_refAt xr wr (i 0) (i 1) (headOf (i 2)) (chanOf (i 2))

end Cert.Attn

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Finite.lean ====
/-
  The "every input is finite" precondition says that every entry of x and of W is a real number.

  The precondition computes  all(|x| < +inf) ∧ all(|W| < +inf)  as one bit: for each argument, the elementwise test
  |a| < +inf against the f32 word 0x7F800000 (which denotes +inf), reduced by `and` over all axes to a single bit, and
  the two bits combined by `and`. If the result is 1 then both bits are 1, so each elementwise test is 1 at every index,
  and an extended real a with max a (-a) < +inf is neither +inf nor -inf, that is, a real number.
-/
import proofs.«176862_j63848983822744_2_alg».proof.Pre_finite_inputs
import proofs.«176862_j63848983822744_2_alg».proof.Proof.LibFiniteEntry
import Idealize.ShloMosaic.Lib.ValueIdx
import Idealize.ShloMosaic.Lib.ReduceAll
import Idealize.ShloMosaic.Lib.Affine

noncomputable section

namespace Cert.Attn

open Idealize.ShloMosaic

/-- From the precondition's bit being 1 to: every entry of both arguments is a real number. -/
theorem finite_of_pre [Cert.Pre_finite_inputs.Facts] (x : FVec Ideal Cert.Pre_finite_inputs.S2x2048x1024 .f32)
    (W : FVec Ideal Cert.Pre_finite_inputs.S3072x1024 .f32)
    (h : Cert.Pre_finite_inputs.fn (F := Ideal) x W = (fun _ => 1#1)) :
    (∀ i, ∃ r : ℝ, x i = (r : EReal)) ∧ (∀ i, ∃ r : ℝ, W i = (r : EReal)) := by
  have h0 := congrFun h ValueIdx.ix0
  dsimp only [Cert.Pre_finite_inputs.fn] at h0
  obtain ⟨h1, h2⟩ := IntOp.andi_eq_one.mp (show IntOp.andi _ _ = 1#1 from h0)
  exact ⟨fun i => Cert.Lib.FiniteEntry.entry_real _ x i (Host.reduce_andi_all _ _ _ _ _ h1 i),
    fun i => Cert.Lib.FiniteEntry.entry_real _ W i (Host.reduce_andi_all _ _ _ _ _ h2 i)⟩

end Cert.Attn

end
-- ==== Proof.lean ====
/-
  The claim: the two-call attention kernel against its reference.

  Frames.  Each kernel program (as printed, and as read on the extended reals) runs as four host operations, the
  projection call, one host operation and the attention call; its two arguments are written by none of them.  The
  reference is a straight line of host operations.
  Preserves.  The idealized kernel is the printed kernel's own text: no rewrite was applied.
  Algebraic.  On the extended reals the kernel's result array is, index by index,
      (∑_{d'} Q(b,s,h,d') · (∑ₜ K(b,t,h,d') · V(b,t,h,d))) · (1/8)
  (the projection call's array, reshaped, read through the attention call's blocks), and the reference's is
      ∑ₜ ((∑_{d'} Q(b,s,h,d') · K(b,t,h,d')) / 8) · V(b,t,h,d).
  Both are the same finite double sum of real numbers once every entry of the two arguments is real, which is what
  the precondition says.
-/
import proofs.«176862_j63848983822744_2_alg».proof.Defs
import proofs.«176862_j63848983822744_2_alg».proof.Proof.Gen.Kernel
import proofs.«176862_j63848983822744_2_alg».proof.Proof.Gen.KernelIdeal
import proofs.«176862_j63848983822744_2_alg».proof.Proof.Gen.ReferenceIdeal
import proofs.«176862_j63848983822744_2_alg».proof.Proof.Gen.Pre_finite_inputs
import proofs.«176862_j63848983822744_2_alg».proof.Proof.Gen.ReferenceIdeal.Run
import proofs.«176862_j63848983822744_2_alg».proof.Proof.Gen.ReferenceIdeal.Read
import proofs.«176862_j63848983822744_2_alg».proof.Proof.Run
import proofs.«176862_j63848983822744_2_alg».proof.Proof.BitsRun
import proofs.«176862_j63848983822744_2_alg».proof.Proof.KerValue
import proofs.«176862_j63848983822744_2_alg».proof.Proof.RefRead
import proofs.«176862_j63848983822744_2_alg».proof.Proof.Algebra
import proofs.«176862_j63848983822744_2_alg».proof.Proof.Finite

noncomputable section

namespace Cert.Proof

open Idealize.ShloMosaic Idealize.ShloMosaic.TcCoe Idealize.SL.Sem

/-- The printed kernel runs to the end, faults nowhere and keeps its arguments. -/
theorem frame_kernel : Cert.frame_Kernel := fun m ρ _ => Cert.Kernel.Fr.frame m ρ

/-- So does the kernel read on the extended reals. -/
theorem frame_kernelIdeal : Cert.frame_KernelIdeal := fun m ρ _ => Cert.KernelIdeal.Fr.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No rewrite was applied: nothing to preserve. -/
theorem preserves : Cert.preserves_Kernel_KernelIdeal := trivial

/-- From memories agreeing on the arguments both programs end with one result array: the kernel's is `kerG` of the
    arguments, the reference's is `refG` of them, and the two agree where every entry is real. -/
theorem algebraic : Cert.algebraic_KernelIdeal_ReferenceIdeal := by
  intro m ρ m' ρ' hpre hagree
  refine ⟨fun c => Cert.KernelIdeal.Fr.attnFinal (F := Ideal) m ρ c, Cert.KernelIdeal.Fr.run_named m ρ, ?_⟩
  refine (θ_run Cert.ReferenceIdeal.defs _ _).mono (fun _ h c => ⟨(h c).1.trans ?_, (h c).2⟩)
    (Cert.ReferenceIdeal.Value.run (F := Ideal) m' ρ')
  obtain ⟨hx, hW⟩ := Cert.Attn.finite_of_pre _ _ (hpre c)
  rw [Cert.ReferenceIdeal.Read.val_main_v11_eq, Cert.Attn.RefRead.ref_eq, (hagree c).1, (hagree c).2]
  show Cert.Attn.refG _ _ = Cert.KernelIdeal.Fr.attnFinal (F := Ideal) m ρ c
  rw [Cert.KernelIdeal.Fr.attnFinal_kerG]
  exact (Cert.Attn.ker_eq_ref _ _ hx hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
